-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S256x128 : Shape := ⟨2, ![256, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S64x128 .f32) (main_arg12 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S256x128 .f32) (main_arg9 : FVec F S128 .f32) (main_arg10 : FVec F S128 .f32) (main_arg11 : FVec F S64x128 .f32) (main_arg12 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S600000 32) (main_arg2 : IVec S600000 32) (main_arg3 : FVec F S128x128 .f32) (main_arg4 : FVec F S256x128 .f32) (main_arg5 : FVec F S128 .f32) (main_arg6 : FVec F S128 .f32) (main_arg7 : FVec F S128x128 .f32) (main_arg8 : FVec F S256x128 .f32) (main_arg9 : FVec F S128 .f32) (main_arg10 : FVec F S128 .f32) (main_arg11 : FVec F S64x128 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S600000 : Shape := ⟨1, ![600000]⟩
abbrev S128x128 : Shape := ⟨2, ![128, 128]⟩
abbrev S256x128 : Shape := ⟨2, ![256, 128]⟩
abbrev S128 : Shape := ⟨1, ![128]⟩
abbrev S64x128 : Shape := ⟨2, ![64, 128]⟩
abbrev S64 : Shape := ⟨1, ![64]⟩
abbrev S128x256 : Shape := ⟨2, ![128, 256]⟩
abbrev S128x384 : Shape := ⟨2, ![128, 384]⟩
abbrev S128x64 : Shape := ⟨2, ![128, 64]⟩
abbrev S10000x128 : Shape := ⟨2, ![10000, 128]⟩
abbrev S10000x384 : Shape := ⟨2, ![10000, 384]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S10000 : Shape := ⟨1, ![10000]⟩
abbrev S10000x1 : Shape := ⟨2, ![10000, 1]⟩
abbrev S1x64 : Shape := ⟨2, ![1, 64]⟩
abbrev S50000x64 : Shape := ⟨2, ![50000, 64]⟩
abbrev S10000x64 : Shape := ⟨2, ![10000, 64]⟩

abbrev nBuf : Space → Nat
  | .hbm => 54
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S256x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S64x128, .f32⟩
  | .hbm, ⟨12, _⟩ => ⟨S64, .f32⟩
  | .hbm, ⟨13, _⟩ => ⟨S128x128, .f32⟩
  | .hbm, ⟨14, _⟩ => ⟨S128x256, .f32⟩
  | .hbm, ⟨15, _⟩ => ⟨S128x384, .f32⟩
  | .hbm, ⟨16, _⟩ => ⟨S128x128, .f32⟩
  | .hbm, ⟨17, _⟩ => ⟨S128x256, .f32⟩
  | .hbm, ⟨18, _⟩ => ⟨S128x384, .f32⟩
  | .hbm, ⟨19, _⟩ => ⟨S128x64, .f32⟩
  | .hbm, ⟨20, _⟩ => ⟨S50000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S_, .f32⟩
  | .hbm, ⟨31, _⟩ => ⟨S50000x128, .f32⟩
  | .hbm, ⟨32, _⟩ => ⟨S600000x1, .i32⟩
  | .hbm, ⟨33, _⟩ => ⟨S50000x128, .f32⟩
  | .hbm, ⟨34, _⟩ => ⟨S1x128, .f32⟩
  | .hbm, ⟨35, _⟩ => ⟨S1x128, .f32⟩
  | .hbm, ⟨36, _⟩ => ⟨S50000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S1x128, .f32⟩
  | .hbm, ⟨51, _⟩ => ⟨S1x128, .f32⟩
  | .hbm, ⟨52, _⟩ => ⟨S1x64, .f32⟩
  | .hbm, ⟨53, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x384, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S128x384, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S128x128_S128x128_1_0 : S128x128.Transposes [1, 0] S128x128
  transposes_S256x128_S128x256_1_0 : S256x128.Transposes [1, 0] S128x256
  concatenates_S128x128_S128x256_S128x384_d1 : Shape.Concatenates [S128x128, S128x256] S128x384 1
  transposes_S64x128_S128x64_1_0 : S64x128.Transposes [1, 0] S128x64
  inb_S10000x128_S10000x128_0_0 : ∀ a, (![0, 0] : Fin 2 → Nat) a + S10000x128.size a ≤ S10000x128.size a
  h_S10000x128 : 0 < S10000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S10000x384_o0_0_S10000x128 : S10000x384.Slices ![0, 0] S10000x128
  slices_S10000x384_o0_128_S10000x128 : S10000x384.Slices ![0, 128] S10000x128
  slices_S10000x384_o0_256_S10000x128 : S10000x384.Slices ![0, 256] S10000x128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  reduces_S10000x128_S10000 : S10000x128.Reduces [1] S10000
  shapeCasts_S10000_S10000x1 : S10000.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  dot_S10000x128_S128x384_S10000x384_1_0_0_1_n_n_wf : DotDims.WF S10000x128 S128x384 S10000x384 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S50000x128.size a
  hwx1_4 : ∀ i : grid1.Coords, EltTy.bits .f32 = 32 ∨ (Rect.block (s := S50000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)

variable [Facts₀]

def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S256x128 : Shape := ⟨2, ![256, 128]⟩
abbrev S128 : Shape := ⟨1, ![128]⟩
abbrev S64x128 : Shape := ⟨2, ![64, 128]⟩
abbrev S64 : Shape := ⟨1, ![64]⟩
abbrev S128x256 : Shape := ⟨2, ![128, 256]⟩
abbrev S50000x256 : Shape := ⟨2, ![50000, 256]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 132
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S128x128, .f32⟩
  | 4 => ⟨S256x128, .f32⟩
  | 5 => ⟨S128, .f32⟩
  | 6 => ⟨S128, .f32⟩
  | 7 => ⟨S128x128, .f32⟩
  | 8 => ⟨S256x128, .f32⟩
  | 9 => ⟨S128, .f32⟩
  | 10 => ⟨S128, .f32⟩
  | 11 => ⟨S64x128, .f32⟩
  | 12 => ⟨S64, .f32⟩
  | 13 => ⟨S128x128, .f32⟩
  | 14 => ⟨S50000x128, .f32⟩
  | 15 => ⟨S128x256, .f32⟩
  | 16 => ⟨S50000x256, .f32⟩
  | 17 => ⟨S50000x128, .f32⟩
  | 18 => ⟨S50000x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S_, .f32⟩
  | 38 => ⟨S50000, .f32⟩
  | 39 => ⟨S50000x1, .f32⟩
  | 40 => ⟨S_, .f32⟩
  | 41 => ⟨S50000x1, .f32⟩
  | 42 => ⟨S50000x1, .f32⟩
  | 43 => ⟨S50000x128, .f32⟩
  | 44 => ⟨S50000x128, .f32⟩
  | 45 => ⟨S50000x128, .f32⟩
  | 46 => ⟨S_, .f32⟩
  | 47 => ⟨S50000, .f32⟩
  | 48 => ⟨S50000x1, .f32⟩
  | 49 => ⟨S_, .f32⟩
  | 50 => ⟨S50000x1, .f32⟩
  | 51 => ⟨S50000x1, .f32⟩
  | 52 => ⟨S50000x128, .f32⟩
  | 53 => ⟨S50000x128, .f32⟩
  | 54 => ⟨S_, .f32⟩
  | 55 => ⟨S50000x1, .f32⟩
  | 56 => ⟨S50000x1, .f32⟩
  | 57 => ⟨S50000x1, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S128x128, .f32⟩
  | 67 => ⟨S50000x128, .f32⟩
  | 68 => ⟨S128x256, .f32⟩
  | 69 => ⟨S50000x256, .f32⟩
  | 70 => ⟨S50000x128, .f32⟩
  | 71 => ⟨S50000x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S_, .f32⟩
  | 87 => ⟨S50000x128, .f32⟩
  | 88 => ⟨S600000x1, .i32⟩
  | 89 => ⟨S50000x128, .f32⟩
  | 90 => ⟨S_, .f32⟩
  | 91 => ⟨S50000, .f32⟩
  | 92 => ⟨S50000x1, .f32⟩
  | 93 => ⟨S_, .f32⟩
  | 94 => ⟨S50000x1, .f32⟩
  | 95 => ⟨S50000x1, .f32⟩
  | 96 => ⟨S50000x128, .f32⟩
  | 97 => ⟨S50000x128, .f32⟩
  | 98 => ⟨S50000x128, .f32⟩
  | 99 => ⟨S_, .f32⟩
  | 100 => ⟨S50000, .f32⟩
  | 101 => ⟨S50000x1, .f32⟩
  | 102 => ⟨S_, .f32⟩
  | 103 => ⟨S50000x1, .f32⟩
  | 104 => ⟨S50000x1, .f32⟩
  | 105 => ⟨S50000x128, .f32⟩
  | 106 => ⟨S50000x128, .f32⟩
  | 107 => ⟨S_, .f32⟩
  | 108 => ⟨S50000x1, .f32⟩
  | 109 => ⟨S50000x1, .f32⟩
  | 110 => ⟨S50000x1, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S128x64, .f32⟩
  | 120 => ⟨S50000x64, .f32⟩
  | 121 => ⟨S1x64, .f32⟩
  | 122 => ⟨S50000x64, .f32⟩
  | 123 => ⟨S50000x64, .f32⟩
  | 124 => ⟨S50000x64, .f32⟩
  | 125 => ⟨S50000x64, .f32⟩
  | 126 => ⟨S_, .f32⟩
  | 127 => ⟨S50000x64, .f32⟩
  | _ => ⟨S50000x128, .f32⟩

abbrev hbmTy0_1 (i : Nat) : BufTy := match i % 128 with
  | 0 => ⟨S50000x64, .f32⟩
  | 1 => ⟨S_, .f32⟩
  | 2 => ⟨S50000x64, .f32⟩
  | 3 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_c_6 : Ref sig .tc := ⟨.hbm, 77, rfl⟩
abbrev main_v52 : Ref sig .tc := ⟨.hbm, 78, rfl⟩
abbrev main_v53 : Ref sig .tc := ⟨.hbm, 79, rfl⟩
abbrev main_c_7 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_8 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_cst_10 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_13 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_14 : Ref sig .tc := ⟨.hbm, 126, rfl⟩
abbrev main_v93 : Ref sig .tc := ⟨.hbm, 127, rfl⟩
abbrev main_v94 : Ref sig .tc := ⟨.hbm, 128, rfl⟩
abbrev main_cst_15 : Ref sig .tc := ⟨.hbm, 129, rfl⟩
abbrev main_v95 : Ref sig .tc := ⟨.hbm, 130, rfl⟩
abbrev main_v96 : Ref sig .tc := ⟨.hbm, 131, rfl⟩

abbrev nD : Nat := 1
abbrev τ : Topo := Topo.v7x

variable {F : FTy → Type} [FloatOps F]

class Facts₀ : Prop where
  transposes_S128x128_S128x128_1_0 : S128x128.Transposes [1, 0] S128x128
  transposes_S256x128_S128x256_1_0 : S256x128.Transposes [1, 0] S128x256
  slices_S50000x256_S50000x128_0_0 : S50000x256.Slices ![0, 0] S50000x128
  slices_S50000x256_S50000x128_0_128 : S50000x256.Slices ![0, 128] S50000x128
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The kernel program's run with its result named.

  The program is three pipelined regions among stretches of host operations.  Its buffers' contents at each
  boundary are a fold from the launch memory: a host stretch applies its operations, a region leaves in each of
  its arrays what its write-backs leave and every other buffer as it found it.  The statement below is the run of
  the whole program — every weakly fair execution terminates, nothing faults — ending with the result array at the
  last boundary's contents and every argument as launched.
-/
import proofs.«146779_j84765474554364_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result array ends at the last
    boundary's contents (what the third region's write-backs leave), and the arguments end as launched. -/
theorem run_result : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Hand

end
-- ==== Proof.Agg.lean ====
/-
  The sum along the graph's edges, as one function.

  Between layers both programs send the per-node messages along the edges: each edge reads the message row of its
  source node (a negative source index counted from the end), and the rows are added into the destination nodes,
  starting from zero.  The step is the same host computation in both programs; it is named here and never opened.
-/
import proofs.«146779_j84765474554364_2_alg».proof.Proof.Gen.KernelIdeal
import Idealize.ShloMosaic.PureOps.Ideal

noncomputable section

namespace Cert.KernelIdeal.Hand

open Cert.KernelIdeal Cert.KernelIdeal.Gen Idealize.ShloMosaic

/-- The rows of `M` gathered at the edges' sources `src` and added into the edges' destinations `dst`. -/
def Agg (src dst : (⟨S600000, .i32⟩ : BufTy).Contents (Elt Ideal)) (M : (⟨S50000x128, .f32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 M
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

end Cert.KernelIdeal.Hand

end
-- ==== Proof.Spec.lean ====
/-
  The mathematics of the two programs, stated once over extended reals.

  A graph network with two feature-wise modulated layers and a read-out.  One layer sends a node's feature row
  `x` through three linear maps — a message map, a scale map and a shift map — and emits, per output channel,
  `max (scale · message + shift, 0)`.  Between layers the emitted rows are summed along the graph's edges (that
  step is the same host computation in both programs and is carried as an unopened function), and each summed row
  is normalised: its mean is removed, it is multiplied by the reciprocal square root of its variance plus a small
  constant, then scaled and shifted per channel.  The read-out is a linear map of the normalised row plus a bias,
  through the logistic function.

  Every function below is stated for an array of `a` rows of 128 features, so that the same text reads a block of
  10000 rows and the whole array of 50000 rows; the small operands (weights, scales, shifts, biases) are plain
  functions of their coordinates, whatever arrangement a program keeps them in.
-/
import Idealize.ShloMosaic.Lib.ValueIdx
import Idealize.ShloMosaic.PureOps.Ideal

noncomputable section

open scoped BigOperators

namespace Cert.Spec

open Idealize.ShloMosaic Idealize.ShloMosaic.ValueIdx

/-- An `[a, b]` array of extended reals. -/
abbrev Mat (a b : ℕ) := (⟨2, ![a, b]⟩ : Shape).Idx → EReal

/-- A weight matrix read by (output channel, input feature). -/
abbrev Wt (o : ℕ) := Fin o → Fin 128 → EReal

/-- Rows `j` and `128 + j` of a 256-row weight matrix: the scale map's and the shift map's rows for channel `j`. -/
def lo (j : Fin 128) : Fin 256 := ⟨j.val, by have := j.isLt; omega⟩
def hi (j : Fin 128) : Fin 256 := ⟨128 + j.val, by have := j.isLt; omega⟩

/-- Columns `j`, `128 + j`, `256 + j` of a 384-column matrix holding the three maps side by side. -/
def c0 (j : Fin 128) : Fin 384 := ⟨j.val, by have := j.isLt; omega⟩
def c1 (j : Fin 128) : Fin 384 := ⟨128 + j.val, by have := j.isLt; omega⟩
def c2 (j : Fin 128) : Fin 384 := ⟨256 + j.val, by have := j.isLt; omega⟩

/-- The modulated message of row `n` at output channel `j`: with `m`, `γ`, `β` the three linear images of the
    row, `max (γ · m + β, 0)`. -/
def filmAt {a : ℕ} (X : Mat a 128) (W G B : Wt 128) (n : Fin a) (j : Fin 128) : EReal :=
  max ((∑ k : Fin 128, X (ix2 n k) * G j k) * (∑ k : Fin 128, X (ix2 n k) * W j k)
        + ∑ k : Fin 128, X (ix2 n k) * B j k) (Ideal.ofBits .f32 0x00000000#32)

/-- The modulated messages of every row. -/
def film {a : ℕ} (X : Mat a 128) (W G B : Wt 128) : Mat a 128 := fun i => filmAt X W G B (i 0) (i 1)

/-- The mean of row `n`: its sum divided by 128. -/
def mean {a : ℕ} (H : Mat a 128) (n : Fin a) : EReal :=
  Ideal.div (∑ k : Fin 128, H (ix2 n k)) (Ideal.ofBits .f32 0x43000000#32)

/-- The variance of row `n`: the sum of the squared deviations from the mean, divided by 128. -/
def var {a : ℕ} (H : Mat a 128) (n : Fin a) : EReal :=
  Ideal.div (∑ k : Fin 128, (H (ix2 n k) - mean H n) * (H (ix2 n k) - mean H n)) (Ideal.ofBits .f32 0x43000000#32)

/-- Row `n` normalised, at feature `k`: `(h − mean) · rsqrt (var + ε) · g + b`. -/
def lnAt {a : ℕ} (H : Mat a 128) (g b : Fin 128 → EReal) (n : Fin a) (k : Fin 128) : EReal :=
  (H (ix2 n k) - mean H n) * Ideal.rsqrt (var H n + Ideal.ofBits .f32 0x3727C5AC#32) * g k + b k

/-- Every row normalised. -/
def ln {a : ℕ} (H : Mat a 128) (g b : Fin 128 → EReal) : Mat a 128 := fun i => lnAt H g b (i 0) (i 1)

/-- The read-out of row `n` at output `o`: the logistic function of a linear image of the row plus a bias. -/
def projAt {a : ℕ} (X : Mat a 128) (Wp : Wt 64) (bp : Fin 64 → EReal) (n : Fin a) (o : Fin 64) : EReal :=
  Ideal.logistic ((∑ k : Fin 128, X (ix2 n k) * Wp o k) + bp o)

/-- The read-out of every row. -/
def proj {a : ℕ} (X : Mat a 128) (Wp : Wt 64) (bp : Fin 64 → EReal) : Mat a 64 := fun i => projAt X Wp bp (i 0) (i 1)

theorem film_ix2 {a : ℕ} (X : Mat a 128) (W G B : Wt 128) (n : Fin a) (j : Fin 128) :
    film X W G B (ix2 n j) = filmAt X W G B n j := rfl

theorem ln_ix2 {a : ℕ} (H : Mat a 128) (g b : Fin 128 → EReal) (n : Fin a) (k : Fin 128) :
    ln H g b (ix2 n k) = lnAt H g b n k := rfl

theorem proj_ix2 {a : ℕ} (X : Mat a 128) (Wp : Wt 64) (bp : Fin 64 → EReal) (n : Fin a) (o : Fin 64) :
    proj X Wp bp (ix2 n o) = projAt X Wp bp n o := rfl

/-- The three functions of a row depend on the array only through that row: two arrays that agree on row `n` of the
    first and row `n'` of the second give the same values there. -/
theorem filmAt_congr {a a' : ℕ} (X : Mat a 128) (X' : Mat a' 128) (W G B : Wt 128) (n : Fin a) (n' : Fin a')
    (h : ∀ k : Fin 128, X (ix2 n k) = X' (ix2 n' k)) (j : Fin 128) : filmAt X W G B n j = filmAt X' W G B n' j := by
  unfold filmAt; simp only [h]

theorem lnAt_congr {a a' : ℕ} (H : Mat a 128) (H' : Mat a' 128) (g b : Fin 128 → EReal) (n : Fin a) (n' : Fin a')
    (h : ∀ k : Fin 128, H (ix2 n k) = H' (ix2 n' k)) (k : Fin 128) : lnAt H g b n k = lnAt H' g b n' k := by
  have hm : mean H n = mean H' n' := by unfold mean; simp only [h]
  have hv : var H n = var H' n' := by unfold var; simp only [h, hm]
  unfold lnAt; rw [h k, hm, hv]

theorem projAt_congr {a a' : ℕ} (X : Mat a 128) (X' : Mat a' 128) (Wp : Wt 64) (bp : Fin 64 → EReal) (n : Fin a) (n' : Fin a')
    (h : ∀ k : Fin 128, X (ix2 n k) = X' (ix2 n' k)) (o : Fin 64) : projAt X Wp bp n o = projAt X' Wp bp n' o := by
  unfold projAt; simp only [h]

end Cert.Spec

end
-- ==== Proof.Cat.lean ====
/-
  The weights as the programs keep them.

  One program multiplies a row block by ONE matrix holding three linear maps side by side: the message map
  transposed in columns 0–127, and the 256-row matrix of the scale map (rows 0–127) and the shift map (rows
  128–255) transposed in columns 128–383.  Read at (feature `k`, column `c`), that matrix gives back the entries of
  the two matrices it was put together from.
-/
import proofs.«146779_j84765474554364_2_alg».proof.Proof.Spec
import Idealize.ShloMosaic.Lib.ValueLayout
import Idealize.ShloMosaic.Lib.Pipeline.Value

noncomputable section

namespace Cert.Weights

open Idealize.ShloMosaic Idealize.ShloMosaic.ValueIdx Cert.Spec

variable {α : Type}

/-- The side-by-side matrix of a [128, 128] matrix `W` transposed and a [256, 128] matrix `Fm` transposed. -/
abbrev sideBySide (W : (⟨2, ![128, 128]⟩ : Shape).Idx → α) (Fm : (⟨2, ![256, 128]⟩ : Shape).Idx → α)
    (hT1 : (⟨2, ![128, 128]⟩ : Shape).Transposes [1, 0] ⟨2, ![128, 128]⟩)
    (hT2 : (⟨2, ![256, 128]⟩ : Shape).Transposes [1, 0] ⟨2, ![128, 256]⟩)
    (hC : Shape.Concatenates [(⟨2, ![128, 128]⟩ : Shape), ⟨2, ![128, 256]⟩] ⟨2, ![128, 384]⟩ 1) :
    (⟨2, ![128, 384]⟩ : Shape).Idx → α :=
  concatenate ⟨2, ![128, 384]⟩ 1
    [⟨⟨2, ![128, 128]⟩, transpose ⟨2, ![128, 128]⟩ [1, 0] W hT1⟩, ⟨⟨2, ![128, 256]⟩, transpose ⟨2, ![128, 256]⟩ [1, 0] Fm hT2⟩] hC

/-- Column `j` of the side-by-side matrix is row `j` of `W`. -/
theorem sideBySide_c0 (W : (⟨2, ![128, 128]⟩ : Shape).Idx → α) (Fm : (⟨2, ![256, 128]⟩ : Shape).Idx → α) (hT1) (hT2) (hC)
    (k j : Fin 128) : sideBySide W Fm hT1 hT2 hC (ix2 k (c0 j)) = W (ix2 j k) :=
  (concatenate_pair_apply_left (t := ⟨2, ![128, 384]⟩) (s₁ := ⟨2, ![128, 128]⟩) (s₂ := ⟨2, ![128, 256]⟩) (1 : Fin 2) _ _ hC (ix2 k (c0 j)) rfl (ix2 k j)
    (fun b => match b with | ⟨0, _⟩ => rfl | ⟨1, _⟩ => rfl)).trans (transpose_ix2_apply W hT1 k j)

/-- Column `128 + j` of the side-by-side matrix is row `j` of `Fm`. -/
theorem sideBySide_c1 (W : (⟨2, ![128, 128]⟩ : Shape).Idx → α) (Fm : (⟨2, ![256, 128]⟩ : Shape).Idx → α) (hT1) (hT2) (hC)
    (k j : Fin 128) : sideBySide W Fm hT1 hT2 hC (ix2 k (c1 j)) = Fm (ix2 (lo j) k) :=
  (concatenate_pair_apply_right (t := ⟨2, ![128, 384]⟩) (s₁ := ⟨2, ![128, 128]⟩) (s₂ := ⟨2, ![128, 256]⟩) (1 : Fin 2) _ _ hC (ix2 k (c1 j)) rfl rfl (ix2 k (lo j))
    (fun b hb => match b with | ⟨0, _⟩ => rfl | ⟨1, _⟩ => absurd rfl hb)
    (by show j.val + 128 = 128 + j.val; omega)).trans (transpose_ix2_apply Fm hT2 k (lo j))

/-- Column `256 + j` of the side-by-side matrix is row `128 + j` of `Fm`. -/
theorem sideBySide_c2 (W : (⟨2, ![128, 128]⟩ : Shape).Idx → α) (Fm : (⟨2, ![256, 128]⟩ : Shape).Idx → α) (hT1) (hT2) (hC)
    (k j : Fin 128) : sideBySide W Fm hT1 hT2 hC (ix2 k (c2 j)) = Fm (ix2 (hi j) k) :=
  (concatenate_pair_apply_right (t := ⟨2, ![128, 384]⟩) (s₁ := ⟨2, ![128, 128]⟩) (s₂ := ⟨2, ![128, 256]⟩) (1 : Fin 2) _ _ hC (ix2 k (c2 j)) rfl rfl (ix2 k (hi j))
    (fun b hb => match b with | ⟨0, _⟩ => rfl | ⟨1, _⟩ => absurd rfl hb)
    (by show (128 + j.val) + 128 = 256 + j.val; omega)).trans (transpose_ix2_apply Fm hT2 k (hi j))

end Cert.Weights

end
-- ==== Proof.KHost.lean ====
/-
  What each region finds in its arrays.

  The program's buffers at a region's entry are a fold from the launch memory through the host stretches and the
  earlier regions.  Read through that fold: the first region finds the feature argument and the side-by-side
  matrix of the first layer's weights; the second finds the edge sum of the first region's messages, the first
  norm's scale and offset as one-row arrays, and the second layer's side-by-side matrix; the third finds the edge
  sum of the second region's messages, the second norm's scale and offset and the read-out bias as one-row
  arrays, and the read-out matrix transposed.
-/
import proofs.«146779_j84765474554364_2_alg».proof.Proof.Gen.KernelIdeal.Frame
import proofs.«146779_j84765474554364_2_alg».proof.Proof.Agg
import proofs.«146779_j84765474554364_2_alg».proof.Proof.Cat
import Idealize.ShloMosaic.Lib.StableHlo.Run
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Spec

variable (m : (ℓ : Loc nD τ sig) → Buf (Elt Ideal) ℓ) (ρ : Dev nD → PrngReg)

/-- One host stretch read back: the operations' results at the buffer asked for. -/
local macro "host_step" : tactic =>
  `(tactic| (dsimp only [V1, V3, V5, W1, W3, W5, hostOps0, hostOps1, hostOps2]; after_results))

/-! ## The first region -/

theorem V1_arg0 (c : Dev nD) : V1 m ρ c main_arg0 = m ((c : Thread nD τ).loc main_arg0) := by
  host_step
  all_goals rfl

theorem V1_v2 (c : Dev nD) :
    (V1 m ρ c main_v2 : S128x384.Idx → EReal)
      = Cert.Weights.sideBySide (m ((c : Thread nD τ).loc main_arg3) : S128x128.Idx → EReal) (m ((c : Thread nD τ).loc main_arg4) : S256x128.Idx → EReal)
          transposes_S128x128_S128x128_1_0 transposes_S256x128_S128x256_1_0 concatenates_S128x128_S128x256_S128x384_d1 := by
  host_step
  all_goals rfl

/-! ## The second region -/

set_option maxHeartbeats 2000000 in
theorem V3_v17 (c : Dev nD) :
    V3 m ρ c main_v17 = Agg (m ((c : Thread nD τ).loc main_arg1)) (m ((c : Thread nD τ).loc main_arg2)) (W2 m ρ c (Proc.devRef .tc main_v7)) := by
  host_step
  rw [W2_of_ne m ρ c main_arg1 (by decide), W2_of_ne m ρ c main_arg2 (by decide)]
  host_step
  all_goals rfl

set_option maxHeartbeats 2000000 in
theorem V3_v18 (c : Dev nD) :
    (V3 m ρ c main_v18 : S1x128.Idx → EReal) = shapeCast S1x128 (m ((c : Thread nD τ).loc main_arg5) : S128.Idx → EReal) shapeCasts_S128_S1x128 := by
  host_step
  rw [W2_of_ne m ρ c main_arg5 (by decide)]
  host_step
  all_goals rfl

set_option maxHeartbeats 2000000 in
theorem V3_v19 (c : Dev nD) :
    (V3 m ρ c main_v19 : S1x128.Idx → EReal) = shapeCast S1x128 (m ((c : Thread nD τ).loc main_arg6) : S128.Idx → EReal) shapeCasts_S128_S1x128 := by
  host_step
  rw [W2_of_ne m ρ c main_arg6 (by decide)]
  host_step
  all_goals rfl

set_option maxHeartbeats 2000000 in
theorem V3_v5 (c : Dev nD) :
    (V3 m ρ c main_v5 : S128x384.Idx → EReal)
      = Cert.Weights.sideBySide (m ((c : Thread nD τ).loc main_arg7) : S128x128.Idx → EReal) (m ((c : Thread nD τ).loc main_arg8) : S256x128.Idx → EReal)
          transposes_S128x128_S128x128_1_0 transposes_S256x128_S128x256_1_0 concatenates_S128x128_S128x256_S128x384_d1 := by
  host_step
  rw [W2_of_ne m ρ c main_v5 (by decide)]
  host_step
  all_goals rfl

/-! ## The third region -/

set_option maxHeartbeats 4000000 in
theorem V5_v30 (c : Dev nD) :
    V5 m ρ c main_v30 = Agg (m ((c : Thread nD τ).loc main_arg1)) (m ((c : Thread nD τ).loc main_arg2)) (W4 m ρ c (Proc.devRef .tc main_v20)) := by
  host_step
  rw [W4_of_ne m ρ c main_arg1 (by decide), W4_of_ne m ρ c main_arg2 (by decide)]
  host_step
  rw [W2_of_ne m ρ c main_arg1 (by decide), W2_of_ne m ρ c main_arg2 (by decide)]
  host_step
  all_goals rfl

set_option maxHeartbeats 4000000 in
theorem V5_v31 (c : Dev nD) :
    (V5 m ρ c main_v31 : S1x128.Idx → EReal) = shapeCast S1x128 (m ((c : Thread nD τ).loc main_arg9) : S128.Idx → EReal) shapeCasts_S128_S1x128 := by
  host_step
  rw [W4_of_ne m ρ c main_arg9 (by decide)]
  host_step
  rw [W2_of_ne m ρ c main_arg9 (by decide)]
  host_step
  all_goals rfl

set_option maxHeartbeats 4000000 in
theorem V5_v32 (c : Dev nD) :
    (V5 m ρ c main_v32 : S1x128.Idx → EReal) = shapeCast S1x128 (m ((c : Thread nD τ).loc main_arg10) : S128.Idx → EReal) shapeCasts_S128_S1x128 := by
  host_step
  rw [W4_of_ne m ρ c main_arg10 (by decide)]
  host_step
  rw [W2_of_ne m ρ c main_arg10 (by decide)]
  host_step
  all_goals rfl

set_option maxHeartbeats 4000000 in
theorem V5_v33 (c : Dev nD) :
    (V5 m ρ c main_v33 : S1x64.Idx → EReal) = shapeCast S1x64 (m ((c : Thread nD τ).loc main_arg12) : S64.Idx → EReal) shapeCasts_S64_S1x64 := by
  host_step
  rw [W4_of_ne m ρ c main_arg12 (by decide)]
  host_step
  rw [W2_of_ne m ρ c main_arg12 (by decide)]
  host_step
  all_goals rfl

set_option maxHeartbeats 4000000 in
theorem V5_v6 (c : Dev nD) :
    (V5 m ρ c main_v6 : S128x64.Idx → EReal) = transpose S128x64 [1, 0] (m ((c : Thread nD τ).loc main_arg11) : S64x128.Idx → EReal) transposes_S64x128_S128x64_1_0 := by
  host_step
  rw [W4_of_ne m ρ c main_v6 (by decide)]
  host_step
  rw [W2_of_ne m ρ c main_v6 (by decide)]
  host_step
  all_goals rfl

end Cert.KernelIdeal.Hand

end
-- ==== Proof.LibPlainDot.lean ====
/-
  A plain two-dimensional contraction read as a sum over the contracted extent.

  A dot of an [M, K] operand with a [K, N] operand contracts the left operand's second axis with the right
  operand's first. Its contraction index has one coordinate, so the sum over contraction indices is a sum over
  `k : Fin K`, and the operands are read at (row, k) and (k, column). The four coordinate facts are hypotheses:
  for a record with literal dimension lists each of them holds by computation.
-/
import Idealize.ShloMosaic.Lib.ValueIdx
import Idealize.ShloMosaic.PureOps.Ideal.Laws

noncomputable section

namespace Cert.LibPlainDot

open Idealize.ShloMosaic Idealize.ShloMosaic.ValueIdx

/-- The contraction sum of a plain [M, K] × [K, N] dot at output index `j`, re-indexed by the one contracted
    coordinate: the left operand at (j 0, k) times the right operand at (k, j 1), summed over `k : Fin K`. -/
theorem plain_sum {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (lhs : (⟨2, ![M, K]⟩ : Shape).Idx → EReal) (rhs : (⟨2, ![K, N]⟩ : Shape).Idx → EReal) (j : (⟨2, ![M, N]⟩ : Shape).Idx) :
    ∑ k : D.contr.Idx, lhs (D.lhsIdx j k) * rhs (D.rhsIdx j k) = ∑ k : Fin K, lhs (ix2 (j 0) k) * rhs (ix2 k (j 1)) := by
  rw [← Equiv.sum_comp (contrEquiv1 D K hr hs).symm]
  refine Finset.sum_congr rfl fun k _ => ?_
  have e1 : D.lhsIdx j ((contrEquiv1 D K hr hs).symm k) = ix2 (j 0) k := by
    funext a; apply Fin.ext
    match a with
    | ⟨0, _⟩ => exact hl0 j _
    | ⟨1, _⟩ => exact (hl1 j _).trans (contrEquiv1_symm_val D K hr hs k)
  have e2 : D.rhsIdx j ((contrEquiv1 D K hr hs).symm k) = ix2 k (j 1) := by
    funext a; apply Fin.ext
    match a with
    | ⟨0, _⟩ => exact (hr0 j _).trans (contrEquiv1_symm_val D K hr hs k)
    | ⟨1, _⟩ => exact hr1 j _
  exact congrArg₂ (fun a b => lhs a * rhs b) e1 e2

/-- A matrix unit's product into the zero accumulator, at the exact values, is that sum. -/
theorem matmul_zero_plain {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (lhs : FVec Ideal ⟨2, ![M, K]⟩ φ₁) (rhs : FVec Ideal ⟨2, ![K, N]⟩ φ₂) (j : (⟨2, ![M, N]⟩ : Shape).Idx) :
    FloatOps.matmul D prec lhs rhs (constant ⟨2, ![M, N]⟩ .f32 0x00000000#32) j = ∑ k : Fin K, lhs (ix2 (j 0) k) * rhs (ix2 k (j 1)) :=
  (Ideal.matmul_constant_zero_apply D prec lhs rhs j).trans (plain_sum D hr hs hl0 hl1 hr0 hr1 lhs rhs j)

/-- The host's dot_general, at the exact values, is the same sum. -/
theorem dotGeneral_plain {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (sched : HostSchedule) (lhs : FVec Ideal ⟨2, ![M, K]⟩ φ₁) (rhs : FVec Ideal ⟨2, ![K, N]⟩ φ₂)
    (j : (⟨2, ![M, N]⟩ : Shape).Idx) :
    FloatOps.dotGeneral D prec sched lhs rhs j = ∑ k : Fin K, lhs (ix2 (j 0) k) * rhs (ix2 k (j 1)) :=
  (Ideal.dotGeneral_apply D prec sched lhs rhs j).trans (plain_sum D hr hs hl0 hl1 hr0 hr1 lhs rhs j)

end Cert.LibPlainDot

end
-- ==== Proof.Pay0.lean ====
/-
  The first layer's block computation, entry by entry.

  A block of 10000 feature rows is multiplied by a [128, 384] matrix that holds the message map, the scale map and
  the shift map side by side; the three 128-column parts of the product are the message, the scale and the shift
  of every row, and the block stored is `max (scale · message + shift, 0)`.  Entry `(p, j)` of the stored block
  is therefore the modulated message of row `p` at channel `j`, the three maps read from columns `j`, `128 + j`
  and `256 + j` of the matrix.
-/
import proofs.«146779_j84765474554364_2_alg».proof.Proof.Gen.KernelIdeal.Skeleton
import proofs.«146779_j84765474554364_2_alg».proof.Proof.Spec
import proofs.«146779_j84765474554364_2_alg».proof.Proof.LibPlainDot
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx Cert.Spec

/-- The [10000, 128] × [128, 384] product into the zero accumulator, at `(p, c)`: the sum over the 128 features
    of the row's entry times the matrix's entry. -/
theorem mm384_apply (lhs : FVec Ideal S10000x128 .f32) (rhs : FVec Ideal S128x384 .f32) (p : Fin 10000) (c : Fin 384) :
    matmul dot_S10000x128_S128x384_S10000x384_1_0_0_1_n_n (some .fp32) lhs rhs
        (constant (F := Ideal) S10000x384 .f32 0x00000000#32) (ix2 p c)
      = ∑ k : Fin 128, lhs (ix2 p k) * rhs (ix2 k c) :=
  Cert.LibPlainDot.matmul_zero_plain dot_S10000x128_S128x384_S10000x384_1_0_0_1_n_n rfl rfl
    (fun _ _ => rfl) (fun j k => dot_S10000x128_S128x384_S10000x384_1_0_0_1_n_n.lhsIdx_val_of_single rfl j k)
    (fun j k => dot_S10000x128_S128x384_S10000x384_1_0_0_1_n_n.rhsIdx_val_of_single rfl j k) (fun _ _ => rfl)
    (some .fp32) lhs rhs (ix2 p c)

/-- The three 128-column parts of a [10000, 384] array, read at `(p, j)`. -/
theorem part0_apply (v : FVec Ideal S10000x384 .f32) (p : Fin 10000) (j : Fin 128) :
    extractStridedSlice S10000x128 ![0, 0] v slices_S10000x384_o0_0_S10000x128 (ix2 p j) = v (ix2 p (c0 j)) :=
  slice2_axis1_apply 0 v slices_S10000x384_o0_0_S10000x128 p j (c0 j) (by show j.val = 0 + j.val; omega)

theorem part1_apply (v : FVec Ideal S10000x384 .f32) (p : Fin 10000) (j : Fin 128) :
    extractStridedSlice S10000x128 ![0, 128] v slices_S10000x384_o0_128_S10000x128 (ix2 p j) = v (ix2 p (c1 j)) :=
  slice2_axis1_apply 128 v slices_S10000x384_o0_128_S10000x128 p j (c1 j) rfl

theorem part2_apply (v : FVec Ideal S10000x384 .f32) (p : Fin 10000) (j : Fin 128) :
    extractStridedSlice S10000x128 ![0, 256] v slices_S10000x384_o0_256_S10000x128 (ix2 p j) = v (ix2 p (c2 j)) :=
  slice2_axis1_apply 256 v slices_S10000x384_o0_256_S10000x128 p j (c2 j) rfl

/-- The modulated messages of a block of rows against the side-by-side matrix `wf`, as the three parts of one
    product: the shape both layer bodies end in. -/
def filmBlock (x : FVec Ideal S10000x128 .f32) (wf : FVec Ideal S128x384 .f32) : FVec Ideal S10000x128 .f32 :=
  maximumf
    (addf
      (mulf
        (extractStridedSlice S10000x128 ![0, 128]
          (matmul dot_S10000x128_S128x384_S10000x384_1_0_0_1_n_n (some .fp32) x wf (constant (F := Ideal) S10000x384 .f32 0x00000000#32))
          slices_S10000x384_o0_128_S10000x128)
        (extractStridedSlice S10000x128 ![0, 0]
          (matmul dot_S10000x128_S128x384_S10000x384_1_0_0_1_n_n (some .fp32) x wf (constant (F := Ideal) S10000x384 .f32 0x00000000#32))
          slices_S10000x384_o0_0_S10000x128))
      (extractStridedSlice S10000x128 ![0, 256]
        (matmul dot_S10000x128_S128x384_S10000x384_1_0_0_1_n_n (some .fp32) x wf (constant (F := Ideal) S10000x384 .f32 0x00000000#32))
        slices_S10000x384_o0_256_S10000x128))
    (broadcast S10000x128 (Scalar.ofBits (F := Ideal) .f32 0x00000000#32))

/-- Entry `(p, j)` of that block is the modulated message of row `p` at channel `j`, the three maps read from
    columns `j`, `128 + j`, `256 + j` of `wf`. -/
theorem filmBlock_apply (x : FVec Ideal S10000x128 .f32) (wf : FVec Ideal S128x384 .f32) (p : Fin 10000) (j : Fin 128) :
    filmBlock x wf (ix2 p j)
      = filmAt (a := 10000) x (fun j k => wf (ix2 k (c0 j))) (fun j k => wf (ix2 k (c1 j))) (fun j k => wf (ix2 k (c2 j))) p j := by
  unfold filmBlock filmAt
  rw [maximumf_apply, addf_apply, mulf_apply, part0_apply, part1_apply, part2_apply, mm384_apply, mm384_apply, mm384_apply]
  rfl

/-- The first layer's stored block is that block of its two loaded operands. -/
theorem k0_pay1_eq (x0 : Vec Ideal S10000x128 .f32) (x1 : Vec Ideal S128x384 .f32) :
    k0_pay1 (F := Ideal) x0 x1 = filmBlock x0 (shapeCast S128x384 x1 shapeCasts_S128x384_S128x384) := rfl

/-- Entry `(p, j)` of the first layer's stored block is the modulated message of row `p` at channel `j`. -/
theorem pay0_apply (x0 : Vec Ideal S10000x128 .f32) (x1 : Vec Ideal S128x384 .f32) (p : Fin 10000) (j : Fin 128) :
    k0_pay1 (F := Ideal) x0 x1 (ix2 p j)
      = filmAt (a := 10000) x0 (fun j k => x1 (ix2 k (c0 j))) (fun j k => x1 (ix2 k (c1 j))) (fun j k => x1 (ix2 k (c2 j))) p j := by
  rw [k0_pay1_eq, shapeCast_self]
  exact filmBlock_apply x0 x1 p j

end Cert.KernelIdeal.Hand

end
-- ==== Proof.Blk0.lean ====
/-
  The first region's array, from its blocks.

  The region runs its body at five grid points; point `t` stages rows `10000·t … 10000·t + 9999` of the feature
  array and the whole side-by-side weight matrix, and writes back rows `10000·t … 10000·t + 9999` of the message
  array.  What a point writes back is the block's rows of ONE function of the arrays the region finds: the
  modulated messages of every row.  The five blocks cover the 50000 rows, so the message array ends as that
  function.
-/
import proofs.«146779_j84765474554364_2_alg».proof.Proof.Gen.KernelIdeal.Frame
import proofs.«146779_j84765474554364_2_alg».proof.Proof.Pay0
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The message array as one function of the arrays the first region finds. -/
def G0 (c : Dev nD) : S50000x128.Idx → EReal :=
  film (a := 50000) (V c main_arg0 : S50000x128.Idx → EReal)
    (fun j k => (V c main_v2 : S128x384.Idx → EReal) (ix2 k (c0 j)))
    (fun j k => (V c main_v2 : S128x384.Idx → EReal) (ix2 k (c1 j)))
    (fun j k => (V c main_v2 : S128x384.Idx → EReal) (ix2 k (c2 j)))

/-- The printed index maps over the grid: the row windows sit at block row `t`, the weight window at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of the feature block at point `t` is entry `(10000·t + p, k)` of the feature array. -/
theorem iblk0_0_apply (c : Dev nD) (t : Fin cfg0.N) (p : Fin 10000) (k : Fin 128) (n : Fin 50000)
    (hn : n.val = t.val * 10000 + p.val) :
    (iblk0 V c 0 t : S10000x128.Idx → EReal) (ix2 p k) = (V c main_arg0 : S50000x128.Idx → EReal) (ix2 n k) := by
  obtain ⟨e0, e1, -, -, -, -⟩ := idx_facts0 t
  unfold iblk0
  rw [View.read_apply]
  show (V c main_arg0 : S50000x128.Idx → EReal) _ = _
  refine congrArg _ (funext fun a => Fin.ext ?_)
  match a with
  | ⟨0, _⟩ => show win0_0.index t (0 : Fin 2) * 10000 + 1 * p.val = n.val; omega
  | ⟨1, _⟩ => show win0_0.index t (1 : Fin 2) * 128 + 1 * k.val = k.val; omega

/-- The weight block at any point is the whole weight matrix. -/
theorem iblk0_1_apply (c : Dev nD) (t : Fin cfg0.N) (k : Fin 128) (q : Fin 384) :
    (iblk0 V c 1 t : S128x384.Idx → EReal) (ix2 k q) = (V c main_v2 : S128x384.Idx → EReal) (ix2 k q) := by
  obtain ⟨-, -, e0, e1, -, -⟩ := idx_facts0 t
  unfold iblk0
  rw [View.read_apply]
  show (V c main_v2 : S128x384.Idx → EReal) _ = _
  refine congrArg _ (funext fun a => Fin.ext ?_)
  match a with
  | ⟨0, _⟩ => show win0_1.index t (0 : Fin 2) * 128 + 1 * k.val = k.val; omega
  | ⟨1, _⟩ => show win0_1.index t (1 : Fin 2) * 384 + 1 * q.val = q.val; omega

/-- What point `t` writes back is block `t` of `G0`. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x384) hz2]
  obtain ⟨-, -, -, -, e0, e1⟩ := idx_facts0 t
  have hN : cfg0.N = 5 := N_0
  funext y
  obtain ⟨p, j, rfl⟩ : ∃ (p : Fin 10000) (j : Fin 128), y = ix2 p j := ⟨y 0, y 1, eq_ix2 y⟩
  have hlt : t.val * 10000 + p.val < 50000 := by have := t.isLt; have := p.isLt; omega
  have hemb : ((cfg0.win 2).blk t).view.emb (ix2 p j) = (ix2 (⟨t.val * 10000 + p.val, hlt⟩ : Fin 50000) j : S50000x128.Idx) := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * j.val = j.val; omega
  show k0_pay1 (F := Ideal) (iblk0 V c 0 t) (iblk0 V c 1 t) (ix2 p j) = G0 V c (((cfg0.win 2).blk t).view.emb (ix2 p j))
  rw [hemb]
  refine (pay0_apply (iblk0 V c 0 t) (iblk0 V c 1 t) p j).trans ?_
  unfold G0
  rw [film_ix2]
  have hw0 : (fun (j k : Fin 128) => (iblk0 V c 1 t : S128x384.Idx → EReal) (ix2 k (c0 j))) = fun j k => (V c main_v2 : S128x384.Idx → EReal) (ix2 k (c0 j)) :=
    funext fun j => funext fun k => iblk0_1_apply V c t k (c0 j)
  have hw1 : (fun (j k : Fin 128) => (iblk0 V c 1 t : S128x384.Idx → EReal) (ix2 k (c1 j))) = fun j k => (V c main_v2 : S128x384.Idx → EReal) (ix2 k (c1 j)) :=
    funext fun j => funext fun k => iblk0_1_apply V c t k (c1 j)
  have hw2 : (fun (j k : Fin 128) => (iblk0 V c 1 t : S128x384.Idx → EReal) (ix2 k (c2 j))) = fun j k => (V c main_v2 : S128x384.Idx → EReal) (ix2 k (c2 j)) :=
    funext fun j => funext fun k => iblk0_1_apply V c t k (c2 j)
  rw [hw0, hw1, hw2]
  exact filmAt_congr _ _ _ _ _ p _ (fun k => iblk0_0_apply V c t p k _ rfl) j

/-- An index of the message array is in point `t`'s block iff each coordinate is in the block's range. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v7).slice (win0_2.rect t)).set ↔ _
  rw [View.set_slice_whole, Rect.mem_set_unit]
  exact Iff.rfl

/-- The five blocks cover the array: row `r` lies in the block of point `r / 10000`. -/
theorem cover0 (i : S50000x128.Idx) : ∃ t : Fin cfg0.N, (cfg0.win 2).flush t = true ∧ i ∈ ((cfg0.win 2).blk t).view.set := by
  have hN : cfg0.N = 5 := N_0
  have hi0 : (i 0).val < 50000 := (i 0).isLt
  have hi1 : (i 1).val < 128 := (i 1).isLt
  let t : Fin cfg0.N := ⟨(i 0).val / 10000, by rw [hN]; omega⟩
  refine ⟨t, flush0_2 t, ?_⟩
  obtain ⟨-, -, -, -, e0, e1⟩ := idx_facts0 t
  have ht : t.val = (i 0).val / 10000 := rfl
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The message array after the first region is `G0` of the arrays the region found. -/
theorem final0 (c : Dev nD) : (dat0 V c).arrAt 2 cfg0.N = G0 V c :=
  (dat0 V c).arrAt_eq_of_cover 2 (G0 V c) (fun t _ => flushed0_eq V c t) (cover0)

end Cert.KernelIdeal.Hand

end
-- ==== Proof.LibColumn.lean ====
/-
  Column forms of the layout operations, read at an index given by its coordinates, and a row sum as a
  finite sum.

  A reduction along the last axis that keeps the reduced axis as a unit axis produces a COLUMN: a vector of
  length `a` re-laid as an `[a, 1]` array.  Such a column is then spread along its unit axis to a full
  `[a, b]` array, every entry of row `p` being the column's entry at `p`.  The lemmas below read these two
  steps entry by entry, and read the sum of a row of an `[a, b]` array of extended reals as the sum over
  the `b` column coordinates.
-/
import Idealize.ShloMosaic.Lib.ValueLayout
import Idealize.ShloMosaic.PureOps.Ideal.Laws

noncomputable section

open scoped BigOperators

namespace Cert.LibColumn

open Idealize.ShloMosaic Idealize.ShloMosaic.ValueIdx

variable {α : Type}

/-- A vector of length `a` re-laid as the column `[a, 1]` has, at `(i, u)`, the vector's entry `i`:
    the row-major position of `(i, u)` in `[a, 1]` is `i · 1 + 0 = i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` has, at `(p, c)`, the column's entry of row `p`, whatever the
    column coordinate `c`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the last axis of an `[a, b]` array of extended reals, started from the zero word, is at
    row `r` the sum over the `b` entries of that row. -/
theorem rowSum_apply {a b : ℕ} (src : FVec Ideal ⟨2, ![a, b]⟩ .f32)
    (h : (⟨2, ![a, b]⟩ : Shape).Reduces [1] ⟨1, ![a]⟩) (r : Fin a) :
    multiReduction .add [1] ⟨1, ![a]⟩ src 0x00000000#32 h (.inl rfl) rfl (ix1 r)
      = ∑ k : Fin b, src (ix2 r k) := by
  refine (Ideal.multiReduction_add_single src 0x00000000#32 h (.inl rfl) rfl (ix1 r)).trans ?_
  refine Finset.sum_congr rfl fun k _ => congrArg src ?_
  funext d
  match d with
  | ⟨0, _⟩ => rfl
  | ⟨1, _⟩ => rfl

end Cert.LibColumn

end
-- ==== Proof.PayLn.lean ====
/-
  The normalisation of a block of rows, entry by entry.

  Both later layer bodies start by normalising their block of 10000 rows: a row's mean is its sum over the 128
  features divided by 128, kept as a column and spread back over the row; the centred row is squared and averaged
  the same way to give the variance; the centred row is multiplied by the reciprocal square root of the variance
  plus a small constant, then by a per-feature scale and shifted by a per-feature offset, both kept as one-row
  arrays spread over the rows.
-/
import proofs.«146779_j84765474554364_2_alg».proof.Proof.Gen.KernelIdeal.Skeleton
import proofs.«146779_j84765474554364_2_alg».proof.Proof.Spec
import proofs.«146779_j84765474554364_2_alg».proof.Proof.LibColumn
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx Cert.Spec

/-- The column of row means of a block: the sum along the features, re-laid as a column, divided by 128. -/
def rowMean (x : FVec Ideal S10000x128 .f32) : FVec Ideal S10000x1 .f32 :=
  divf (shapeCast S10000x1 (multiReduction .add [1] S10000 x 0x00000000#32 reduces_S10000x128_S10000 (.inl rfl) rfl) shapeCasts_S10000_S10000x1)
    (broadcast S10000x1 (Scalar.ofBits (F := Ideal) .f32 0x43000000#32))

theorem rowMean_apply (x : FVec Ideal S10000x128 .f32) (p : Fin 10000) (u : Fin 1) :
    rowMean x (ix2 p u) = Ideal.div (∑ k : Fin 128, x (ix2 p k)) (Ideal.ofBits .f32 0x43000000#32) := by
  unfold rowMean
  rw [divf_apply, Cert.LibColumn.shapeCast_a_a1_apply, Cert.LibColumn.rowSum_apply]
  rfl

/-- The block with each row's mean removed. -/
def centred (x : FVec Ideal S10000x128 .f32) : FVec Ideal S10000x128 .f32 :=
  subf x (broadcastTo S10000x128 (rowMean x) broadcasts_S10000x1_S10000x128)

theorem centred_apply (x : FVec Ideal S10000x128 .f32) (p : Fin 10000) (k : Fin 128) :
    centred x (ix2 p k) = x (ix2 p k) - mean (a := 10000) x p := by
  unfold centred mean
  rw [subf_apply, Cert.LibColumn.broadcastTo_a1_ab_apply, rowMean_apply]

/-- The column of row variances is the column of means of the squared centred block. -/
theorem rowVar_apply (x : FVec Ideal S10000x128 .f32) (p : Fin 10000) (u : Fin 1) :
    rowMean (mulf (centred x) (centred x)) (ix2 p u) = var (a := 10000) x p := by
  rw [rowMean_apply]
  unfold var
  refine congrArg (fun s => Ideal.div s _) (Finset.sum_congr rfl fun k _ => ?_)
  rw [mulf_apply, centred_apply]

/-- The normalised block: the centred block times the spread reciprocal square root of variance plus the small
    constant, times the spread scale row, plus the spread offset row. -/
def lnBlock (x : FVec Ideal S10000x128 .f32) (g b : FVec Ideal S1x128 .f32) : FVec Ideal S10000x128 .f32 :=
  addf
    (mulf
      (mulf (centred x)
        (broadcastTo S10000x128
          (rsqrt (addf (rowMean (mulf (centred x) (centred x))) (broadcast S10000x1 (Scalar.ofBits (F := Ideal) .f32 0x3727C5AC#32))))
          broadcasts_S10000x1_S10000x128))
      (broadcastTo S10000x128 g broadcasts_S1x128_S10000x128))
    (broadcastTo S10000x128 b broadcasts_S1x128_S10000x128)

/-- Entry `(p, k)` of the normalised block is row `p` normalised at feature `k`, the scale and the offset read
    from the one-row arrays. -/
theorem lnBlock_apply (x : FVec Ideal S10000x128 .f32) (g b : FVec Ideal S1x128 .f32) (p : Fin 10000) (k : Fin 128) :
    lnBlock x g b (ix2 p k)
      = lnAt (a := 10000) x (fun k => g (ix2 (0 : Fin 1) k)) (fun k => b (ix2 (0 : Fin 1) k)) p k := by
  unfold lnBlock lnAt
  rw [addf_apply, mulf_apply, mulf_apply, centred_apply, Cert.LibColumn.broadcastTo_a1_ab_apply,
    broadcastTo_1b_ab_apply, broadcastTo_1b_ab_apply]
  show (_ - _) * Ideal.rsqrt (rowMean (mulf (centred x) (centred x)) (ix2 p (0 : Fin 1)) + _) * _ + _ = _
  rw [rowVar_apply]
  rfl

end Cert.KernelIdeal.Hand

end
-- ==== Proof.Pay1.lean ====
/-
  The second layer's block computation, entry by entry: the block of summed messages is normalised row by row,
  and the normalised block goes through the same three side-by-side linear maps and the same
  `max (scale · message + shift, 0)` as the first layer's.
-/
import proofs.«146779_j84765474554364_2_alg».proof.Proof.Pay0
import proofs.«146779_j84765474554364_2_alg».proof.Proof.PayLn

noncomputable section

open scoped BigOperators

namespace Cert.KernelIdeal.Hand

open Cert.KernelIdeal Cert.KernelIdeal.Gen Idealize.ShloMosaic Idealize.ShloMosaic.ValueIdx Cert.Spec

/-- The second layer's stored block: the modulated messages of the normalised block. -/
theorem k1_pay1_eq (v0 : Vec Ideal S10000x128 .f32) (v20 v24 : Vec Ideal S1x128 .f32) (v28 : Vec Ideal S128x384 .f32) :
    k1_pay1 (F := Ideal) v0 v20 v24 v28
      = filmBlock
          (lnBlock (shapeCast S10000x128 v0 shapeCasts_S10000x128_S10000x128) (shapeCast S1x128 v20 shapeCasts_S1x128_S1x128)
            (shapeCast S1x128 v24 shapeCasts_S1x128_S1x128))
          (shapeCast S128x384 v28 shapeCasts_S128x384_S128x384) := rfl

/-- Entry `(p, j)` of the second layer's stored block: the modulated message, at channel `j`, of row `p`
    normalised. -/
theorem pay1_apply (v0 : Vec Ideal S10000x128 .f32) (v20 v24 : Vec Ideal S1x128 .f32) (v28 : Vec Ideal S128x384 .f32)
    (p : Fin 10000) (j : Fin 128) :
    k1_pay1 (F := Ideal) v0 v20 v24 v28 (ix2 p j)
      = filmAt (a := 10000) (ln (a := 10000) v0 (fun k => v20 (ix2 (0 : Fin 1) k)) (fun k => v24 (ix2 (0 : Fin 1) k)))
          (fun j k => v28 (ix2 k (c0 j))) (fun j k => v28 (ix2 k (c1 j))) (fun j k => v28 (ix2 k (c2 j))) p j := by
  rw [k1_pay1_eq, shapeCast_self, shapeCast_self, shapeCast_self, shapeCast_self]
  refine (filmBlock_apply _ _ p j).trans ?_
  exact filmAt_congr _ _ _ _ _ p p (fun k => (lnBlock_apply v0 v20 v24 p k).trans (ln_ix2 _ _ _ p k).symm) j

end Cert.KernelIdeal.Hand

end
-- ==== Proof.Blk1.lean ====
/-
  The second region's array, from its blocks.

  Point `t` of the second region stages rows `10000·t … 10000·t + 9999` of the array of summed messages, the
  one-row scale and offset of the norm, and the whole side-by-side weight matrix, and writes back the same rows of
  the second message array.  What it writes back is the block's rows of one function of the arrays the region
  finds: every summed row normalised, then modulated.  The five blocks cover the 50000 rows.
-/
import proofs.«146779_j84765474554364_2_alg».proof.Proof.Gen.KernelIdeal.Frame
import proofs.«146779_j84765474554364_2_alg».proof.Proof.Pay1
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl

/-- The second message array as one function of the arrays the second region finds. -/
def G1 (c : Dev nD) : S50000x128.Idx → EReal :=
  film (a := 50000)
    (ln (a := 50000) (V c main_v17 : S50000x128.Idx → EReal)
      (fun k => (V c main_v18 : S1x128.Idx → EReal) (ix2 (0 : Fin 1) k))
      (fun k => (V c main_v19 : S1x128.Idx → EReal) (ix2 (0 : Fin 1) k)))
    (fun j k => (V c main_v5 : S128x384.Idx → EReal) (ix2 k (c0 j)))
    (fun j k => (V c main_v5 : S128x384.Idx → EReal) (ix2 k (c1 j)))
    (fun j k => (V c main_v5 : S128x384.Idx → EReal) (ix2 k (c2 j)))

/-- The printed index maps over the grid: the row windows sit at block row `t`, every other window at its one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `(p, k)` of the row block at point `t` is entry `(10000·t + p, k)` of the array of summed messages. -/
theorem iblk1_0_apply (c : Dev nD) (t : Fin cfg1.N) (p : Fin 10000) (k : Fin 128) (n : Fin 50000)
    (hn : n.val = t.val * 10000 + p.val) :
    (iblk1 V c 0 t : S10000x128.Idx → EReal) (ix2 p k) = (V c main_v17 : S50000x128.Idx → EReal) (ix2 n k) := by
  obtain ⟨e0, e1, -⟩ := idx_facts1 t
  unfold iblk1
  rw [View.read_apply]
  show (V c main_v17 : S50000x128.Idx → EReal) _ = _
  refine congrArg _ (funext fun a => Fin.ext ?_)
  match a with
  | ⟨0, _⟩ => show win1_0.index t (0 : Fin 2) * 10000 + 1 * p.val = n.val; omega
  | ⟨1, _⟩ => show win1_0.index t (1 : Fin 2) * 128 + 1 * k.val = k.val; omega

/-- The scale block at any point is the whole one-row scale array. -/
theorem iblk1_1_apply (c : Dev nD) (t : Fin cfg1.N) (u : Fin 1) (k : Fin 128) :
    (iblk1 V c 1 t : S1x128.Idx → EReal) (ix2 u k) = (V c main_v18 : S1x128.Idx → EReal) (ix2 u k) := by
  obtain ⟨-, -, e0, e1, -⟩ := idx_facts1 t
  unfold iblk1
  rw [View.read_apply]
  show (V c main_v18 : S1x128.Idx → EReal) _ = _
  refine congrArg _ (funext fun a => Fin.ext ?_)
  match a with
  | ⟨0, _⟩ => show win1_1.index t (0 : Fin 2) * 1 + 1 * u.val = u.val; omega
  | ⟨1, _⟩ => show win1_1.index t (1 : Fin 2) * 128 + 1 * k.val = k.val; omega

/-- The offset block at any point is the whole one-row offset array. -/
theorem iblk1_2_apply (c : Dev nD) (t : Fin cfg1.N) (u : Fin 1) (k : Fin 128) :
    (iblk1 V c 2 t : S1x128.Idx → EReal) (ix2 u k) = (V c main_v19 : S1x128.Idx → EReal) (ix2 u k) := by
  obtain ⟨-, -, -, -, e0, e1, -⟩ := idx_facts1 t
  unfold iblk1
  rw [View.read_apply]
  show (V c main_v19 : S1x128.Idx → EReal) _ = _
  refine congrArg _ (funext fun a => Fin.ext ?_)
  match a with
  | ⟨0, _⟩ => show win1_2.index t (0 : Fin 2) * 1 + 1 * u.val = u.val; omega
  | ⟨1, _⟩ => show win1_2.index t (1 : Fin 2) * 128 + 1 * k.val = k.val; omega

/-- The weight block at any point is the whole weight matrix. -/
theorem iblk1_3_apply (c : Dev nD) (t : Fin cfg1.N) (k : Fin 128) (q : Fin 384) :
    (iblk1 V c 3 t : S128x384.Idx → EReal) (ix2 k q) = (V c main_v5 : S128x384.Idx → EReal) (ix2 k q) := by
  obtain ⟨-, -, -, -, -, -, e0, e1, -⟩ := idx_facts1 t
  unfold iblk1
  rw [View.read_apply]
  show (V c main_v5 : S128x384.Idx → EReal) _ = _
  refine congrArg _ (funext fun a => Fin.ext ?_)
  match a with
  | ⟨0, _⟩ => show win1_3.index t (0 : Fin 2) * 128 + 1 * k.val = k.val; omega
  | ⟨1, _⟩ => show win1_3.index t (1 : Fin 2) * 384 + 1 * q.val = q.val; omega

/-- What point `t` writes back is block `t` of `G1`. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz2']
  simp only [View.ld_unit_zero (S := S10000x128) hz2', View.ld_unit_zero (S := S128x384) hz2', View.ld_unit_zero (S := S1x128) hz2']
  obtain ⟨-, -, -, -, -, -, -, -, e0, e1⟩ := idx_facts1 t
  have hN : cfg1.N = 5 := N_1
  funext y
  obtain ⟨p, j, rfl⟩ : ∃ (p : Fin 10000) (j : Fin 128), y = ix2 p j := ⟨y 0, y 1, eq_ix2 y⟩
  have hlt : t.val * 10000 + p.val < 50000 := by have := t.isLt; have := p.isLt; omega
  have hemb : ((cfg1.win 4).blk t).view.emb (ix2 p j) = (ix2 (⟨t.val * 10000 + p.val, hlt⟩ : Fin 50000) j : S50000x128.Idx) := by
    funext a; apply Fin.ext
    match a with
    | ⟨0, _⟩ => show win1_4.index t (0 : Fin 2) * 10000 + 1 * p.val = t.val * 10000 + p.val; omega
    | ⟨1, _⟩ => show win1_4.index t (1 : Fin 2) * 128 + 1 * j.val = j.val; omega
  show k1_pay1 (F := Ideal) (iblk1 V c 0 t) (iblk1 V c 1 t) (iblk1 V c 2 t) (iblk1 V c 3 t) (ix2 p j) = G1 V c (((cfg1.win 4).blk t).view.emb (ix2 p j))
  rw [hemb]
  refine (pay1_apply (iblk1 V c 0 t) (iblk1 V c 1 t) (iblk1 V c 2 t) (iblk1 V c 3 t) p j).trans ?_
  unfold G1
  rw [film_ix2]
  have hg : (fun (k : Fin 128) => (iblk1 V c 1 t : S1x128.Idx → EReal) (ix2 (0 : Fin 1) k)) = fun k => (V c main_v18 : S1x128.Idx → EReal) (ix2 (0 : Fin 1) k) :=
    funext fun k => iblk1_1_apply V c t 0 k
  have hb : (fun (k : Fin 128) => (iblk1 V c 2 t : S1x128.Idx → EReal) (ix2 (0 : Fin 1) k)) = fun k => (V c main_v19 : S1x128.Idx → EReal) (ix2 (0 : Fin 1) k) :=
    funext fun k => iblk1_2_apply V c t 0 k
  have hw0 : (fun (j k : Fin 128) => (iblk1 V c 3 t : S128x384.Idx → EReal) (ix2 k (c0 j))) = fun j k => (V c main_v5 : S128x384.Idx → EReal) (ix2 k (c0 j)) :=
    funext fun j => funext fun k => iblk1_3_apply V c t k (c0 j)
  have hw1 : (fun (j k : Fin 128) => (iblk1 V c 3 t : S128x384.Idx → EReal) (ix2 k (c1 j))) = fun j k => (V c main_v5 : S128x384.Idx → EReal) (ix2 k (c1 j)) :=
    funext fun j => funext fun k => iblk1_3_apply V c t k (c1 j)
  have hw2 : (fun (j k : Fin 128) => (iblk1 V c 3 t : S128x384.Idx → EReal) (ix2 k (c2 j))) = fun j k => (V c main_v5 : S128x384.Idx → EReal) (ix2 k (c2 j)) :=
    funext fun j => funext fun k => iblk1_3_apply V c t k (c2 j)
  rw [hg, hb, hw0, hw1, hw2]
  refine filmAt_congr _ _ _ _ _ p _ (fun k => ?_) j
  rw [ln_ix2, ln_ix2]
  exact lnAt_congr _ _ _ _ p _ (fun k' => iblk1_0_apply V c t p k' _ rfl) k

/-- An index of the second message array is in point `t`'s block iff each coordinate is in the block's range. -/
theorem mem_blk1 (t : Fin cfg1.N) (i : S50000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v20).slice (win1_4.rect t)).set ↔ _
  rw [View.set_slice_whole, Rect.mem_set_unit]
  exact Iff.rfl

/-- The five blocks cover the array: row `r` lies in the block of point `r / 10000`. -/
theorem cover1 (i : S50000x128.Idx) : ∃ t : Fin cfg1.N, (cfg1.win 4).flush t = true ∧ i ∈ ((cfg1.win 4).blk t).view.set := by
  have hN : cfg1.N = 5 := N_1
  have hi0 : (i 0).val < 50000 := (i 0).isLt
  have hi1 : (i 1).val < 128 := (i 1).isLt
  let t : Fin cfg1.N := ⟨(i 0).val / 10000, by rw [hN]; omega⟩
  refine ⟨t, flush1_4 t, ?_⟩
  obtain ⟨-, -, -, -, -, -, -, -, e0, e1⟩ := idx_facts1 t
  have ht : t.val = (i 0).val / 10000 := rfl
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- The second message array after the second region is `G1` of the arrays the region found. -/
theorem final1 (c : Dev nD) : (dat1 V c).arrAt 4 cfg1.N = G1 V c :=
  (dat1 V c).arrAt_eq_of_cover 4 (G1 V c) (fun t _ => flushed1_eq V c t) (cover1)

end Cert.KernelIdeal.Hand

end
-- ==== Proof.Pay2.lean ====
/-
  The read-out's block computation, entry by entry: the block of summed messages is normalised row by row, the
  normalised block is multiplied by the [128, 64] read-out matrix, a one-row bias spread over the rows is added,
  and the logistic function is applied.
-/
import proofs.«146779_j84765474554364_2_alg».proof.Proof.PayLn
import proofs.«146779_j84765474554364_2_alg».proof.Proof.LibPlainDot

noncomputable section

open scoped BigOperators

namespace Cert.KernelIdeal.Hand

open Cert.KernelIdeal Cert.KernelIdeal.Gen Idealize.ShloMosaic Idealize.ShloMosaic.ValueIdx Cert.Spec

/-- The [10000, 128] × [128, 64] product into the zero accumulator, at `(p, o)`. -/
theorem mm64_apply (lhs : FVec Ideal S10000x128 .f32) (rhs : FVec Ideal S128x64 .f32) (p : Fin 10000) (o : Fin 64) :
    matmul dot_S10000x128_S128x64_S10000x64_1_0_0_1_n_n (some .fp32) lhs rhs
        (constant (F := Ideal) S10000x64 .f32 0x00000000#32) (ix2 p o)
      = ∑ k : Fin 128, lhs (ix2 p k) * rhs (ix2 k o) :=
  Cert.LibPlainDot.matmul_zero_plain dot_S10000x128_S128x64_S10000x64_1_0_0_1_n_n rfl rfl
    (fun _ _ => rfl) (fun j k => dot_S10000x128_S128x64_S10000x64_1_0_0_1_n_n.lhsIdx_val_of_single rfl j k)
    (fun j k => dot_S10000x128_S128x64_S10000x64_1_0_0_1_n_n.rhsIdx_val_of_single rfl j k) (fun _ _ => rfl)
    (some .fp32) lhs rhs (ix2 p o)

/-- The read-out of a block of rows: the product with the read-out matrix, plus the spread bias row, through the
    logistic function. -/
def projBlock (x : FVec Ideal S10000x128 .f32) (w : FVec Ideal S128x64 .f32) (bp : FVec Ideal S1x64 .f32) : FVec Ideal S10000x64 .f32 :=
  logistic
    (addf (matmul dot_S10000x128_S128x64_S10000x64_1_0_0_1_n_n (some .fp32) x w (constant (F := Ideal) S10000x64 .f32 0x00000000#32))
      (broadcastTo S10000x64 bp broadcasts_S1x64_S10000x64))

theorem projBlock_apply (x : FVec Ideal S10000x128 .f32) (w : FVec Ideal S128x64 .f32) (bp : FVec Ideal S1x64 .f32)
    (p : Fin 10000) (o : Fin 64) :
    projBlock x w bp (ix2 p o)
      = projAt (a := 10000) x (fun o k => w (ix2 k o)) (fun o => bp (ix2 (0 : Fin 1) o)) p o := by
  unfold projBlock projAt
  show Ideal.logistic (_ + _) = _
  rw [mm64_apply, broadcastTo_1b_ab_apply]

/-- The read-out's stored block: the read-out of the normalised block. -/
theorem k2_pay1_eq (v0 : Vec Ideal S10000x128 .f32) (v20 v24 : Vec Ideal S1x128 .f32) (v28 : Vec Ideal S128x64 .f32) (v31 : Vec Ideal S1x64 .f32) :
    k2_pay1 (F := Ideal) v0 v20 v24 v28 v31
      = projBlock
          (lnBlock (shapeCast S10000x128 v0 shapeCasts_S10000x128_S10000x128) (shapeCast S1x128 v20 shapeCasts_S1x128_S1x128)
            (shapeCast S1x128 v24 shapeCasts_S1x128_S1x128))
          (shapeCast S128x64 v28 shapeCasts_S128x64_S128x64) (shapeCast S1x64 v31 shapeCasts_S1x64_S1x64) := rfl

/-- Entry `(p, o)` of the read-out's stored block: the read-out, at output `o`, of row `p` normalised. -/
theorem pay2_apply (v0 : Vec Ideal S10000x128 .f32) (v20 v24 : Vec Ideal S1x128 .f32) (v28 : Vec Ideal S128x64 .f32) (v31 : Vec Ideal S1x64 .f32)
    (p : Fin 10000) (o : Fin 64) :
    k2_pay1 (F := Ideal) v0 v20 v24 v28 v31 (ix2 p o)
      = projAt (a := 10000) (ln (a := 10000) v0 (fun k => v20 (ix2 (0 : Fin 1) k)) (fun k => v24 (ix2 (0 : Fin 1) k)))
          (fun o k => v28 (ix2 k o)) (fun o => v31 (ix2 (0 : Fin 1) o)) p o := by
  rw [k2_pay1_eq, shapeCast_self, shapeCast_self, shapeCast_self, shapeCast_self, shapeCast_self]
  refine (projBlock_apply _ _ _ p o).trans ?_
  exact projAt_congr _ _ _ _ p p (fun k => (lnBlock_apply v0 v20 v24 p k).trans (ln_ix2 _ _ _ p k).symm) o

end Cert.KernelIdeal.Hand

end
-- ==== Proof.Blk2.lean ====
/-
  The third region's array, from its blocks.

  Point `t` of the third region stages rows `10000·t … 10000·t + 9999` of the second array of summed messages,
  the one-row scale and offset of the second norm, the [128, 64] read-out matrix and the one-row read-out bias,
  and writes back the same rows of the result.  What it writes back is the block's rows of one function of the
  arrays the region finds: every summed row normalised, then read out.  The five blocks cover the 50000 rows.
-/
import proofs.«146779_j84765474554364_2_alg».proof.Proof.Gen.KernelIdeal.Frame
import proofs.«146779_j84765474554364_2_alg».proof.Proof.Pay2
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz2'' : (![0, 0] : Fin 2 → Nat) = fun _ => 0 := funext fun a => by fin_cases a <;> rfl

/-- The result array as one function of the arrays the third region finds. -/
def G2 (c : Dev nD) : S50000x64.Idx → EReal :=
  proj (a := 50000)
    (ln (a := 50000) (V c main_v30 : S50000x128.Idx → EReal)
      (fun k => (V c main_v31 : S1x128.Idx → EReal) (ix2 (0 : Fin 1) k))
      (fun k => (V c main_v32 : S1x128.Idx → EReal) (ix2 (0 : Fin 1) k)))
    (fun o k => (V c main_v6 : S128x64.Idx → EReal) (ix2 k o))
    (fun o => (V c main_v33 : S1x64.Idx → EReal) (ix2 (0 : Fin 1) o))

/-- The printed index maps over the grid: the row windows sit at block row `t`, every other window at its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry `(p, k)` of the row block at point `t` is entry `(10000·t + p, k)` of the array of summed messages. -/
theorem iblk2_0_apply (c : Dev nD) (t : Fin cfg2.N) (p : Fin 10000) (k : Fin 128) (n : Fin 50000)
    (hn : n.val = t.val * 10000 + p.val) :
    (iblk2 V c 0 t : S10000x128.Idx → EReal) (ix2 p k) = (V c main_v30 : S50000x128.Idx → EReal) (ix2 n k) := by
  obtain ⟨e0, e1, -⟩ := idx_facts2 t
  unfold iblk2
  rw [View.read_apply]
  show (V c main_v30 : S50000x128.Idx → EReal) _ = _
  refine congrArg _ (funext fun a => Fin.ext ?_)
  match a with
  | ⟨0, _⟩ => show win2_0.index t (0 : Fin 2) * 10000 + 1 * p.val = n.val; omega
  | ⟨1, _⟩ => show win2_0.index t (1 : Fin 2) * 128 + 1 * k.val = k.val; omega

/-- The scale block at any point is the whole one-row scale array. -/
theorem iblk2_1_apply (c : Dev nD) (t : Fin cfg2.N) (u : Fin 1) (k : Fin 128) :
    (iblk2 V c 1 t : S1x128.Idx → EReal) (ix2 u k) = (V c main_v31 : S1x128.Idx → EReal) (ix2 u k) := by
  obtain ⟨-, -, e0, e1, -⟩ := idx_facts2 t
  unfold iblk2
  rw [View.read_apply]
  show (V c main_v31 : S1x128.Idx → EReal) _ = _
  refine congrArg _ (funext fun a => Fin.ext ?_)
  match a with
  | ⟨0, _⟩ => show win2_1.index t (0 : Fin 2) * 1 + 1 * u.val = u.val; omega
  | ⟨1, _⟩ => show win2_1.index t (1 : Fin 2) * 128 + 1 * k.val = k.val; omega

/-- The offset block at any point is the whole one-row offset array. -/
theorem iblk2_2_apply (c : Dev nD) (t : Fin cfg2.N) (u : Fin 1) (k : Fin 128) :
    (iblk2 V c 2 t : S1x128.Idx → EReal) (ix2 u k) = (V c main_v32 : S1x128.Idx → EReal) (ix2 u k) := by
  obtain ⟨-, -, -, -, e0, e1, -⟩ := idx_facts2 t
  unfold iblk2
  rw [View.read_apply]
  show (V c main_v32 : S1x128.Idx → EReal) _ = _
  refine congrArg _ (funext fun a => Fin.ext ?_)
  match a with
  | ⟨0, _⟩ => show win2_2.index t (0 : Fin 2) * 1 + 1 * u.val = u.val; omega
  | ⟨1, _⟩ => show win2_2.index t (1 : Fin 2) * 128 + 1 * k.val = k.val; omega

/-- The read-out matrix's block at any point is the whole matrix. -/
theorem iblk2_3_apply (c : Dev nD) (t : Fin cfg2.N) (k : Fin 128) (o : Fin 64) :
    (iblk2 V c 3 t : S128x64.Idx → EReal) (ix2 k o) = (V c main_v6 : S128x64.Idx → EReal) (ix2 k o) := by
  obtain ⟨-, -, -, -, -, -, e0, e1, -⟩ := idx_facts2 t
  unfold iblk2
  rw [View.read_apply]
  show (V c main_v6 : S128x64.Idx → EReal) _ = _
  refine congrArg _ (funext fun a => Fin.ext ?_)
  match a with
  | ⟨0, _⟩ => show win2_3.index t (0 : Fin 2) * 128 + 1 * k.val = k.val; omega
  | ⟨1, _⟩ => show win2_3.index t (1 : Fin 2) * 64 + 1 * o.val = o.val; omega

/-- The bias block at any point is the whole one-row bias array. -/
theorem iblk2_4_apply (c : Dev nD) (t : Fin cfg2.N) (u : Fin 1) (o : Fin 64) :
    (iblk2 V c 4 t : S1x64.Idx → EReal) (ix2 u o) = (V c main_v33 : S1x64.Idx → EReal) (ix2 u o) := by
  obtain ⟨-, -, -, -, -, -, -, -, e0, e1, -⟩ := idx_facts2 t
  unfold iblk2
  rw [View.read_apply]
  show (V c main_v33 : S1x64.Idx → EReal) _ = _
  refine congrArg _ (funext fun a => Fin.ext ?_)
  match a with
  | ⟨0, _⟩ => show win2_4.index t (0 : Fin 2) * 1 + 1 * u.val = u.val; omega
  | ⟨1, _⟩ => show win2_4.index t (1 : Fin 2) * 64 + 1 * o.val = o.val; omega

/-- What point `t` writes back is block `t` of `G2`. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2'']
  simp only [View.ld_unit_zero (S := S10000x128) hz2'', View.ld_unit_zero (S := S128x64) hz2'', View.ld_unit_zero (S := S1x128) hz2'',
    View.ld_unit_zero (S := S1x64) hz2'']
  obtain ⟨-, -, -, -, -, -, -, -, -, -, e0, e1⟩ := idx_facts2 t
  have hN : cfg2.N = 5 := N_2
  funext y
  obtain ⟨p, o, rfl⟩ : ∃ (p : Fin 10000) (o : Fin 64), y = ix2 p o := ⟨y 0, y 1, eq_ix2 y⟩
  have hlt : t.val * 10000 + p.val < 50000 := by have := t.isLt; have := p.isLt; omega
  have hemb : ((cfg2.win 5).blk t).view.emb (ix2 p o) = (ix2 (⟨t.val * 10000 + p.val, hlt⟩ : Fin 50000) o : S50000x64.Idx) := by
    funext a; apply Fin.ext
    match a with
    | ⟨0, _⟩ => show win2_5.index t (0 : Fin 2) * 10000 + 1 * p.val = t.val * 10000 + p.val; omega
    | ⟨1, _⟩ => show win2_5.index t (1 : Fin 2) * 64 + 1 * o.val = o.val; omega
  show k2_pay1 (F := Ideal) (iblk2 V c 0 t) (iblk2 V c 1 t) (iblk2 V c 2 t) (iblk2 V c 3 t) (iblk2 V c 4 t) (ix2 p o) = G2 V c (((cfg2.win 5).blk t).view.emb (ix2 p o))
  rw [hemb]
  refine (pay2_apply (iblk2 V c 0 t) (iblk2 V c 1 t) (iblk2 V c 2 t) (iblk2 V c 3 t) (iblk2 V c 4 t) p o).trans ?_
  unfold G2
  rw [proj_ix2]
  have hg : (fun (k : Fin 128) => (iblk2 V c 1 t : S1x128.Idx → EReal) (ix2 (0 : Fin 1) k)) = fun k => (V c main_v31 : S1x128.Idx → EReal) (ix2 (0 : Fin 1) k) :=
    funext fun k => iblk2_1_apply V c t 0 k
  have hb : (fun (k : Fin 128) => (iblk2 V c 2 t : S1x128.Idx → EReal) (ix2 (0 : Fin 1) k)) = fun k => (V c main_v32 : S1x128.Idx → EReal) (ix2 (0 : Fin 1) k) :=
    funext fun k => iblk2_2_apply V c t 0 k
  have hw : (fun (o : Fin 64) (k : Fin 128) => (iblk2 V c 3 t : S128x64.Idx → EReal) (ix2 k o)) = fun o k => (V c main_v6 : S128x64.Idx → EReal) (ix2 k o) :=
    funext fun o => funext fun k => iblk2_3_apply V c t k o
  have hbp : (fun (o : Fin 64) => (iblk2 V c 4 t : S1x64.Idx → EReal) (ix2 (0 : Fin 1) o)) = fun o => (V c main_v33 : S1x64.Idx → EReal) (ix2 (0 : Fin 1) o) :=
    funext fun o => iblk2_4_apply V c t 0 o
  rw [hg, hb, hw, hbp]
  refine projAt_congr _ _ _ _ p _ (fun k => ?_) o
  rw [ln_ix2, ln_ix2]
  exact lnAt_congr _ _ _ _ p _ (fun k' => iblk2_0_apply V c t p k' _ rfl) k

/-- An index of the result array is in point `t`'s block iff each coordinate is in the block's range. -/
theorem mem_blk2 (t : Fin cfg2.N) (i : S50000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v34).slice (win2_5.rect t)).set ↔ _
  rw [View.set_slice_whole, Rect.mem_set_unit]
  exact Iff.rfl

/-- The five blocks cover the array: row `r` lies in the block of point `r / 10000`. -/
theorem cover2 (i : S50000x64.Idx) : ∃ t : Fin cfg2.N, (cfg2.win 5).flush t = true ∧ i ∈ ((cfg2.win 5).blk t).view.set := by
  have hN : cfg2.N = 5 := N_2
  have hi0 : (i 0).val < 50000 := (i 0).isLt
  have hi1 : (i 1).val < 64 := (i 1).isLt
  let t : Fin cfg2.N := ⟨(i 0).val / 10000, by rw [hN]; omega⟩
  refine ⟨t, flush2_5 t, ?_⟩
  obtain ⟨-, -, -, -, -, -, -, -, -, -, e0, e1⟩ := idx_facts2 t
  have ht : t.val = (i 0).val / 10000 := rfl
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The result array after the third region is `G2` of the arrays the region found. -/
theorem final2 (c : Dev nD) : (dat2 V c).arrAt 5 cfg2.N = G2 V c :=
  (dat2 V c).arrAt_eq_of_cover 5 (G2 V c) (fun t _ => flushed2_eq V c t) (cover2)

end Cert.KernelIdeal.Hand

end
-- ==== Proof.Whole.lean ====
/-
  The whole network as one function of its thirteen arguments.

  Features `x`; edge sources and destinations; per layer a message matrix `W`, a 256-row matrix `Fm` holding the
  scale map (rows 0–127) and the shift map (rows 128–255), and the norm's scale `g` and offset `b`; the read-out
  matrix `Wp` and bias `bp`.  Layer one modulates the feature rows; the messages are summed along the edges and
  normalised; layer two modulates the normalised rows; the messages are summed along the edges and normalised
  again; the read-out maps each row through a linear map, a bias and the logistic function.
-/
import proofs.«146779_j84765474554364_2_alg».proof.Proof.Spec
import proofs.«146779_j84765474554364_2_alg».proof.Proof.Agg

noncomputable section

namespace Cert.KernelIdeal.Hand

open Cert.KernelIdeal Idealize.ShloMosaic Idealize.ShloMosaic.ValueIdx Cert.Spec

/-- The network's result array. -/
def whole (x : S50000x128.Idx → EReal) (src dst : (⟨S600000, .i32⟩ : BufTy).Contents (Elt Ideal))
    (W1 : S128x128.Idx → EReal) (F1 : S256x128.Idx → EReal) (g1 b1 : S128.Idx → EReal)
    (W2 : S128x128.Idx → EReal) (F2 : S256x128.Idx → EReal) (g2 b2 : S128.Idx → EReal)
    (Wp : S64x128.Idx → EReal) (bp : S64.Idx → EReal) : S50000x64.Idx → EReal :=
  proj (a := 50000)
    (ln (a := 50000)
      (Agg src dst
        (film (a := 50000)
          (ln (a := 50000)
            (Agg src dst
              (film (a := 50000) x (fun j k => W1 (ix2 j k)) (fun j k => F1 (ix2 (lo j) k)) (fun j k => F1 (ix2 (hi j) k))))
            (fun k => g1 (ix1 k)) (fun k => b1 (ix1 k)))
          (fun j k => W2 (ix2 j k)) (fun j k => F2 (ix2 (lo j) k)) (fun j k => F2 (ix2 (hi j) k))))
      (fun k => g2 (ix1 k)) (fun k => b2 (ix1 k)))
    (fun o k => Wp (ix2 o k)) (fun o => bp (ix1 o))

end Cert.KernelIdeal.Hand

end
-- ==== Proof.KVal.lean ====
/-
  The kernel program's result is the network's function of its arguments.

  The result array is what the third region's write-backs leave: the read-out of the normalised second edge sum.
  The second edge sum is of what the second region's write-backs leave, the modulated normalised first edge sum;
  the first edge sum is of what the first region's write-backs leave, the modulated feature rows.  Each region's
  small operands are the arguments re-laid by the host: the side-by-side weight matrices, the one-row scales,
  offsets and bias, the transposed read-out matrix.
-/
import proofs.«146779_j84765474554364_2_alg».proof.Proof.KHost
import proofs.«146779_j84765474554364_2_alg».proof.Proof.Blk0
import proofs.«146779_j84765474554364_2_alg».proof.Proof.Blk1
import proofs.«146779_j84765474554364_2_alg».proof.Proof.Blk2
import proofs.«146779_j84765474554364_2_alg».proof.Proof.Whole

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ) (ρ : Dev nD → PrngReg)

/-- The first region's messages: the feature rows modulated by the first layer's maps. -/
theorem msgs1 (c : Dev nD) :
    (W2 m ρ c (Proc.devRef .tc main_v7) : S50000x128.Idx → EReal)
      = film (a := 50000) (m ((c : Thread nD τ).loc main_arg0) : S50000x128.Idx → EReal)
          (fun j k => (m ((c : Thread nD τ).loc main_arg3) : S128x128.Idx → EReal) (ix2 j k))
          (fun j k => (m ((c : Thread nD τ).loc main_arg4) : S256x128.Idx → EReal) (ix2 (lo j) k))
          (fun j k => (m ((c : Thread nD τ).loc main_arg4) : S256x128.Idx → EReal) (ix2 (hi j) k)) := by
  refine (W2_arr m ρ c 2).trans ((final0 (V1 m ρ) c).trans ?_)
  unfold G0
  rw [V1_arg0, V1_v2]
  simp only [Cert.Weights.sideBySide_c0, Cert.Weights.sideBySide_c1, Cert.Weights.sideBySide_c2]

/-- The second region's messages: the first edge sum normalised, then modulated by the second layer's maps. -/
theorem msgs2 (c : Dev nD) :
    (W4 m ρ c (Proc.devRef .tc main_v20) : S50000x128.Idx → EReal)
      = film (a := 50000)
          (ln (a := 50000) (Agg (m ((c : Thread nD τ).loc main_arg1)) (m ((c : Thread nD τ).loc main_arg2)) (W2 m ρ c (Proc.devRef .tc main_v7)))
            (fun k => (m ((c : Thread nD τ).loc main_arg5) : S128.Idx → EReal) (ix1 k))
            (fun k => (m ((c : Thread nD τ).loc main_arg6) : S128.Idx → EReal) (ix1 k)))
          (fun j k => (m ((c : Thread nD τ).loc main_arg7) : S128x128.Idx → EReal) (ix2 j k))
          (fun j k => (m ((c : Thread nD τ).loc main_arg8) : S256x128.Idx → EReal) (ix2 (lo j) k))
          (fun j k => (m ((c : Thread nD τ).loc main_arg8) : S256x128.Idx → EReal) (ix2 (hi j) k)) := by
  refine (W4_arr m ρ c 4).trans ((final1 (V3 m ρ) c).trans ?_)
  unfold G1
  rw [V3_v17, V3_v18, V3_v19, V3_v5]
  simp only [Cert.Weights.sideBySide_c0, Cert.Weights.sideBySide_c1, Cert.Weights.sideBySide_c2, shapeCast_a_1a_apply]

/-- The result: the second edge sum normalised, then read out. -/
theorem result3 (c : Dev nD) :
    (W6 m ρ c (Proc.devRef .tc main_v34) : S50000x64.Idx → EReal)
      = proj (a := 50000)
          (ln (a := 50000) (Agg (m ((c : Thread nD τ).loc main_arg1)) (m ((c : Thread nD τ).loc main_arg2)) (W4 m ρ c (Proc.devRef .tc main_v20)))
            (fun k => (m ((c : Thread nD τ).loc main_arg9) : S128.Idx → EReal) (ix1 k))
            (fun k => (m ((c : Thread nD τ).loc main_arg10) : S128.Idx → EReal) (ix1 k)))
          (fun o k => (m ((c : Thread nD τ).loc main_arg11) : S64x128.Idx → EReal) (ix2 o k))
          (fun o => (m ((c : Thread nD τ).loc main_arg12) : S64.Idx → EReal) (ix1 o)) := by
  refine (W6_arr m ρ c 5).trans ((final2 (V5 m ρ) c).trans ?_)
  unfold G2
  rw [V5_v30, V5_v31, V5_v32, V5_v33, V5_v6]
  have hT : (fun (o : Fin 64) (k : Fin 128) =>
      transpose S128x64 [1, 0] (m ((c : Thread nD τ).loc main_arg11) : S64x128.Idx → EReal) transposes_S64x128_S128x64_1_0 (ix2 k o))
      = fun o k => (m ((c : Thread nD τ).loc main_arg11) : S64x128.Idx → EReal) (ix2 o k) :=
    funext fun o => funext fun k =>
      transpose_ix2_apply (a := 64) (b := 128) (m ((c : Thread nD τ).loc main_arg11) : S64x128.Idx → EReal) transposes_S64x128_S128x64_1_0 k o
  simp only [shapeCast_a_1a_apply, hT]

/-- The kernel program's result array is the network's function of the thirteen arguments. -/
theorem kernel_value (c : Dev nD) :
    (W6 m ρ c (Proc.devRef .tc main_v34) : S50000x64.Idx → EReal)
      = whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  rw [result3, msgs2, msgs1]
  rfl

end Cert.KernelIdeal.Hand

end
-- ==== Proof.RefSide.lean ====
/-
  The reference program read against the stated mathematics.

  The reference computes, for an array of 50000 feature rows: a modulated layer (three linear images of a row,
  combined per channel as `max (scale · message + shift, 0)`), a sum of the emitted rows along the graph's edges,
  a normalisation of every summed row, the same three steps a second time, and a read-out through the logistic
  function.  Each theorem below identifies one of these arrays, as the reference program writes it, with the
  function of the same name in `Cert.Spec`; the two edge sums are left as the host's gather and scatter-add of the
  array that precedes them.

  Every proof reads the array at an index given by its two coordinates and follows the program one operation at a
  time: a contraction is a sum over the 128 contracted coordinates, a reduction along the feature axis is a sum over
  the 128 features, a transposition, a slice or a spreading of a row or a column only renames coordinates, and the
  elementwise operations are the arithmetic of the extended reals.
-/
import proofs.«146779_j84765474554364_2_alg».proof.Proof.Gen.ReferenceIdeal.Read
import proofs.«146779_j84765474554364_2_alg».proof.Proof.Spec
import Idealize.ShloMosaic.Lib.ValueIdx
import Idealize.ShloMosaic.Lib.IdealHost
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx Cert.Spec

variable (x0 : (⟨S50000x128, .f32⟩ : BufTy).Contents (Elt Ideal)) (x1 x2 : (⟨S600000, .i32⟩ : BufTy).Contents (Elt Ideal))
  (x3 : (⟨S128x128, .f32⟩ : BufTy).Contents (Elt Ideal)) (x4 : (⟨S256x128, .f32⟩ : BufTy).Contents (Elt Ideal)) (x5 x6 : (⟨S128, .f32⟩ : BufTy).Contents (Elt Ideal))
  (x7 : (⟨S128x128, .f32⟩ : BufTy).Contents (Elt Ideal)) (x8 : (⟨S256x128, .f32⟩ : BufTy).Contents (Elt Ideal)) (x9 x10 : (⟨S128, .f32⟩ : BufTy).Contents (Elt Ideal))
  (x11 : (⟨S64x128, .f32⟩ : BufTy).Contents (Elt Ideal)) (x12 : (⟨S64, .f32⟩ : BufTy).Contents (Elt Ideal))

/-! ## The first modulated layer -/

/-- The message map's image of row `n` at channel `j`: the contraction of the row with row `j` of the weight
    matrix (the program contracts with the transposed matrix, read at the swapped coordinates). -/
theorem v1_at (n : Fin 50000) (j : Fin 128) :
    val_main_v1 (F := Ideal) x0 x3 (ix2 n j) = ∑ k : Fin 128, x0 (ix2 n k) * x3 (ix2 j k) := by
  rw [val_main_v1_apply]
  refine Finset.sum_congr rfl fun k _ => ?_
  rw [val_main_v0_apply]
  exact congrArg₂ (fun a b => x0 a * x3 b) (funext fun a => by match a with | ⟨0, _⟩ => rfl | ⟨1, _⟩ => rfl) (funext fun a => by match a with | ⟨0, _⟩ => rfl | ⟨1, _⟩ => rfl)

/-- The scale-and-shift map's image of row `n` at column `c` of its 256 columns. -/
theorem v3_at (n : Fin 50000) (c : Fin 256) :
    val_main_v3 (F := Ideal) x0 x4 (ix2 n c) = ∑ k : Fin 128, x0 (ix2 n k) * x4 (ix2 c k) := by
  rw [val_main_v3_apply]
  refine Finset.sum_congr rfl fun k _ => ?_
  rw [val_main_v2_apply]
  exact congrArg₂ (fun a b => x0 a * x4 b) (funext fun a => by match a with | ⟨0, _⟩ => rfl | ⟨1, _⟩ => rfl) (funext fun a => by match a with | ⟨0, _⟩ => rfl | ⟨1, _⟩ => rfl)

/-- The scale: the first 128 columns. -/
theorem v4_at (n : Fin 50000) (j : Fin 128) :
    val_main_v4 (F := Ideal) x0 x4 (ix2 n j) = ∑ k : Fin 128, x0 (ix2 n k) * x4 (ix2 (lo j) k) := by
  rw [val_main_v4_apply]
  have e : idx_main_v4 (ix2 n j) = ix2 n (lo j) := funext fun a => by match a with | ⟨0, _⟩ => rfl | ⟨1, _⟩ => rfl
  rw [e, v3_at]

/-- The shift: the last 128 columns. -/
theorem v5_at (n : Fin 50000) (j : Fin 128) :
    val_main_v5 (F := Ideal) x0 x4 (ix2 n j) = ∑ k : Fin 128, x0 (ix2 n k) * x4 (ix2 (hi j) k) := by
  rw [val_main_v5_apply]
  have e : idx_main_v5 (ix2 n j) = ix2 n (hi j) := funext fun a => by match a with | ⟨0, _⟩ => rfl | ⟨1, _⟩ => rfl
  rw [e, v3_at]

theorem msg1_at (n : Fin 50000) (j : Fin 128) :
    val_main_v8 (F := Ideal) x0 x3 x4 (ix2 n j)
      = filmAt (a := 50000) x0 (fun j k => x3 (ix2 j k)) (fun j k => x4 (ix2 (lo j) k)) (fun j k => x4 (ix2 (hi j) k)) n j := by
  rw [val_main_v8_apply, Ideal.maximumf_def, val_main_v7_apply, Ideal.addf_def, val_main_v6_apply, Ideal.mulf_def, v4_at, v1_at,
    v5_at, val_main_call0_v0_apply, val_main_call0_cst_apply, Ideal.ofBits_def]
  rfl

/-- The first layer's messages. -/
theorem msg1 : val_main_v8 (F := Ideal) x0 x3 x4
    = film (a := 50000) x0 (fun j k => x3 (ix2 j k)) (fun j k => x4 (ix2 (lo j) k)) (fun j k => x4 (ix2 (hi j) k)) := by
  funext i
  obtain ⟨n, j, rfl⟩ : ∃ (n : Fin 50000) (j : Fin 128), i = ix2 n j := ⟨i 0, i 1, eq_ix2 i⟩
  exact msg1_at x0 x3 x4 n j

/-- The first layer's messages summed along the edges: the host's scatter-add, into zeros at the edges' targets, of
    the host's gather of the messages at the edges' sources. -/
theorem agg1 : val_main_v18 (F := Ideal) x0 x1 x2 x3 x4
    = Host.scatterAdd (F := Ideal) (φ := .f32) scatter_S50000x128_S600000x1_S600000x128_1_0_0_1 (val_main_v16 (F := Ideal)) (val_main_v17 (F := Ideal) x2)
        (Host.gather (α := Elt Ideal .f32) gather_S50000x128_S600000x1_S600000x128_1_0_n_n_0_1_1128 (val_main_v8 (F := Ideal) x0 x3 x4) (val_main_v14 (F := Ideal) x1)) := by
  unfold val_main_v18 val_main_v15
  rfl

/-! ## The first normalisation -/

/-- The sum of row `n`. -/
theorem ln1_sum_at (n : Fin 50000) :
    val_main_v19 (F := Ideal) x0 x1 x2 x3 x4 (ix1 n) = ∑ k : Fin 128, val_main_v18 (F := Ideal) x0 x1 x2 x3 x4 (ix2 n k) := by
  rw [val_main_v19_apply, val_main_cst_1_apply, Ideal.ofBits_def, Ideal.ofBits_zero_f32, zero_add]
  refine Finset.sum_congr rfl fun k _ => congrArg _ ?_
  exact funext fun a => by match a with | ⟨0, _⟩ => rfl | ⟨1, _⟩ => rfl

/-- The mean column at row `n`. -/
theorem ln1_mean_at (n : Fin 50000) (u : Fin 1) :
    val_main_v22 (F := Ideal) x0 x1 x2 x3 x4 (ix2 n u) = mean (a := 50000) (val_main_v18 (F := Ideal) x0 x1 x2 x3 x4) n := by
  rw [val_main_v22_apply, Ideal.hostDivf_def, val_main_v20_apply, val_main_v21_apply, val_main_cst_2_apply, Ideal.ofBits_def]
  have e : idx_main_v20 (ix2 n u) = ix1 n := funext fun a => by match a with | ⟨0, _⟩ => rfl
  rw [e, ln1_sum_at]
  rfl

/-- The deviation from the mean, as the program forms it for the variance. -/
theorem ln1_dev_at (n : Fin 50000) (k : Fin 128) :
    val_main_v24 (F := Ideal) x0 x1 x2 x3 x4 (ix2 n k) = val_main_v18 (F := Ideal) x0 x1 x2 x3 x4 (ix2 n k) - mean (a := 50000) (val_main_v18 (F := Ideal) x0 x1 x2 x3 x4) n := by
  rw [val_main_v24_apply, Ideal.subf_def, val_main_v23_apply]
  have e : idx_main_v23 (ix2 n k) = ix2 n (0 : Fin 1) := funext fun a => by match a with | ⟨0, _⟩ => rfl | ⟨1, _⟩ => rfl
  rw [e, ln1_mean_at]

/-- The sum of the squared deviations of row `n`. -/
theorem ln1_sqsum_at (n : Fin 50000) :
    val_main_v26 (F := Ideal) x0 x1 x2 x3 x4 (ix1 n)
      = ∑ k : Fin 128, (val_main_v18 (F := Ideal) x0 x1 x2 x3 x4 (ix2 n k) - mean (a := 50000) (val_main_v18 (F := Ideal) x0 x1 x2 x3 x4) n) * (val_main_v18 (F := Ideal) x0 x1 x2 x3 x4 (ix2 n k) - mean (a := 50000) (val_main_v18 (F := Ideal) x0 x1 x2 x3 x4) n) := by
  rw [val_main_v26_apply, val_main_cst_3_apply, Ideal.ofBits_def, Ideal.ofBits_zero_f32, zero_add]
  refine Finset.sum_congr rfl fun k _ => ?_
  have e : idx_main_v26 (ix1 n) k = ix2 n k := funext fun a => by match a with | ⟨0, _⟩ => rfl | ⟨1, _⟩ => rfl
  rw [e, val_main_v25_apply, Ideal.mulf_def, ln1_dev_at]

/-- The variance column at row `n`. -/
theorem ln1_var_at (n : Fin 50000) (u : Fin 1) :
    val_main_v29 (F := Ideal) x0 x1 x2 x3 x4 (ix2 n u) = var (a := 50000) (val_main_v18 (F := Ideal) x0 x1 x2 x3 x4) n := by
  rw [val_main_v29_apply, Ideal.hostDivf_def, val_main_v27_apply, val_main_v28_apply, val_main_cst_4_apply, Ideal.ofBits_def]
  have e : idx_main_v27 (ix2 n u) = ix1 n := funext fun a => by match a with | ⟨0, _⟩ => rfl
  rw [e, ln1_sqsum_at]
  rfl

/-- The reciprocal square root of the variance plus the small constant, spread along the row. -/
theorem ln1_rs_at (n : Fin 50000) (k : Fin 128) :
    val_main_v35 (F := Ideal) x0 x1 x2 x3 x4 (ix2 n k) = Ideal.rsqrt (var (a := 50000) (val_main_v18 (F := Ideal) x0 x1 x2 x3 x4) n + Ideal.ofBits .f32 0x3727C5AC#32) := by
  rw [val_main_v35_apply, val_main_v34_apply, Ideal.hostUnary_rsqrt_def, val_main_v33_apply, Ideal.addf_def, val_main_v32_apply, val_main_cst_5_apply,
    Ideal.ofBits_def]
  have e : idx_main_v35 (ix2 n k) = ix2 n (0 : Fin 1) := funext fun a => by match a with | ⟨0, _⟩ => rfl | ⟨1, _⟩ => rfl
  rw [e, ln1_var_at]

/-- The deviation from the mean times that reciprocal square root. -/
theorem ln1_norm_at (n : Fin 50000) (k : Fin 128) :
    val_main_v36 (F := Ideal) x0 x1 x2 x3 x4 (ix2 n k)
      = (val_main_v18 (F := Ideal) x0 x1 x2 x3 x4 (ix2 n k) - mean (a := 50000) (val_main_v18 (F := Ideal) x0 x1 x2 x3 x4) n) * Ideal.rsqrt (var (a := 50000) (val_main_v18 (F := Ideal) x0 x1 x2 x3 x4) n + Ideal.ofBits .f32 0x3727C5AC#32) := by
  rw [val_main_v36_apply, Ideal.mulf_def, ln1_rs_at, val_main_v31_apply, Ideal.subf_def, val_main_v30_apply]
  have e : idx_main_v30 (ix2 n k) = ix2 n (0 : Fin 1) := funext fun a => by match a with | ⟨0, _⟩ => rfl | ⟨1, _⟩ => rfl
  rw [e, ln1_mean_at]

/-- The per-feature scale, spread along the rows. -/
theorem ln1_g_at (n : Fin 50000) (k : Fin 128) : val_main_v38 (F := Ideal) x5 (ix2 n k) = x5 (ix1 k) := by
  rw [val_main_v38_apply, val_main_v37_apply]
  exact congrArg x5 (funext fun a => by match a with | ⟨0, _⟩ => rfl)

/-- The per-feature shift, spread along the rows. -/
theorem ln1_b_at (n : Fin 50000) (k : Fin 128) : val_main_v41 (F := Ideal) x6 (ix2 n k) = x6 (ix1 k) := by
  rw [val_main_v41_apply, val_main_v40_apply]
  exact congrArg x6 (funext fun a => by match a with | ⟨0, _⟩ => rfl)

/-- The normalised row `n` at feature `k`. -/
theorem ln1_at (n : Fin 50000) (k : Fin 128) :
    val_main_v42 (F := Ideal) x0 x1 x2 x3 x4 x5 x6 (ix2 n k)
      = lnAt (a := 50000) (val_main_v18 (F := Ideal) x0 x1 x2 x3 x4) (fun k => x5 (ix1 k)) (fun k => x6 (ix1 k)) n k := by
  rw [val_main_v42_apply, Ideal.addf_def, val_main_v39_apply, Ideal.mulf_def, ln1_norm_at, ln1_g_at, ln1_b_at]
  rfl

/-! ## The second modulated layer -/

/-- The message map's image of the normalised row `n` at channel `j`. -/
theorem v44_at (n : Fin 50000) (j : Fin 128) :
    val_main_v44 (F := Ideal) x0 x1 x2 x3 x4 x5 x6 x7 (ix2 n j) = ∑ k : Fin 128, lnAt (a := 50000) (val_main_v18 (F := Ideal) x0 x1 x2 x3 x4) (fun k => x5 (ix1 k)) (fun k => x6 (ix1 k)) n k * x7 (ix2 j k) := by
  rw [val_main_v44_apply]
  refine Finset.sum_congr rfl fun k _ => ?_
  rw [val_main_v43_apply]
  have el : lidx_main_v44 (ix2 n j) k = ix2 n k := funext fun a => by match a with | ⟨0, _⟩ => rfl | ⟨1, _⟩ => rfl
  have er : idx_main_v43 (ridx_main_v44 (ix2 n j) k) = ix2 j k := funext fun a => by match a with | ⟨0, _⟩ => rfl | ⟨1, _⟩ => rfl
  rw [el, er, ln1_at]

/-- The scale-and-shift map's image of the normalised row `n` at column `c` of its 256 columns. -/
theorem v46_at (n : Fin 50000) (c : Fin 256) :
    val_main_v46 (F := Ideal) x0 x1 x2 x3 x4 x5 x6 x8 (ix2 n c) = ∑ k : Fin 128, lnAt (a := 50000) (val_main_v18 (F := Ideal) x0 x1 x2 x3 x4) (fun k => x5 (ix1 k)) (fun k => x6 (ix1 k)) n k * x8 (ix2 c k) := by
  rw [val_main_v46_apply]
  refine Finset.sum_congr rfl fun k _ => ?_
  rw [val_main_v45_apply]
  have el : lidx_main_v46 (ix2 n c) k = ix2 n k := funext fun a => by match a with | ⟨0, _⟩ => rfl | ⟨1, _⟩ => rfl
  have er : idx_main_v45 (ridx_main_v46 (ix2 n c) k) = ix2 c k := funext fun a => by match a with | ⟨0, _⟩ => rfl | ⟨1, _⟩ => rfl
  rw [el, er, ln1_at]

/-- The scale: the first 128 columns. -/
theorem v47_at (n : Fin 50000) (j : Fin 128) :
    val_main_v47 (F := Ideal) x0 x1 x2 x3 x4 x5 x6 x8 (ix2 n j) = ∑ k : Fin 128, lnAt (a := 50000) (val_main_v18 (F := Ideal) x0 x1 x2 x3 x4) (fun k => x5 (ix1 k)) (fun k => x6 (ix1 k)) n k * x8 (ix2 (lo j) k) := by
  rw [val_main_v47_apply]
  have e : idx_main_v47 (ix2 n j) = ix2 n (lo j) := funext fun a => by match a with | ⟨0, _⟩ => rfl | ⟨1, _⟩ => rfl
  rw [e, v46_at]

/-- The shift: the last 128 columns. -/
theorem v48_at (n : Fin 50000) (j : Fin 128) :
    val_main_v48 (F := Ideal) x0 x1 x2 x3 x4 x5 x6 x8 (ix2 n j) = ∑ k : Fin 128, lnAt (a := 50000) (val_main_v18 (F := Ideal) x0 x1 x2 x3 x4) (fun k => x5 (ix1 k)) (fun k => x6 (ix1 k)) n k * x8 (ix2 (hi j) k) := by
  rw [val_main_v48_apply]
  have e : idx_main_v48 (ix2 n j) = ix2 n (hi j) := funext fun a => by match a with | ⟨0, _⟩ => rfl | ⟨1, _⟩ => rfl
  rw [e, v46_at]

theorem msg2_at (n : Fin 50000) (j : Fin 128) :
    val_main_v51 (F := Ideal) x0 x1 x2 x3 x4 x5 x6 x7 x8 (ix2 n j)
      = filmAt (a := 50000) (ln (a := 50000) (val_main_v18 (F := Ideal) x0 x1 x2 x3 x4) (fun k => x5 (ix1 k)) (fun k => x6 (ix1 k)))
          (fun j k => x7 (ix2 j k)) (fun j k => x8 (ix2 (lo j) k)) (fun j k => x8 (ix2 (hi j) k)) n j := by
  rw [val_main_v51_apply, Ideal.maximumf_def, val_main_v50_apply, Ideal.addf_def, val_main_v49_apply, Ideal.mulf_def, v47_at, v44_at,
    v48_at, val_main_call1_v0_apply, val_main_call1_cst_apply, Ideal.ofBits_def]
  rfl

/-- The second layer's messages: the modulated layer applied to the normalised first sums. -/
theorem msg2 : val_main_v51 (F := Ideal) x0 x1 x2 x3 x4 x5 x6 x7 x8
    = film (a := 50000) (ln (a := 50000) (val_main_v18 (F := Ideal) x0 x1 x2 x3 x4) (fun k => x5 (ix1 k)) (fun k => x6 (ix1 k)))
        (fun j k => x7 (ix2 j k)) (fun j k => x8 (ix2 (lo j) k)) (fun j k => x8 (ix2 (hi j) k)) := by
  funext i
  obtain ⟨n, j, rfl⟩ : ∃ (n : Fin 50000) (j : Fin 128), i = ix2 n j := ⟨i 0, i 1, eq_ix2 i⟩
  exact msg2_at x0 x1 x2 x3 x4 x5 x6 x7 x8 n j

/-- The second layer's messages summed along the edges, as for the first layer. -/
theorem agg2 : val_main_v61 (F := Ideal) x0 x1 x2 x3 x4 x5 x6 x7 x8
    = Host.scatterAdd (F := Ideal) (φ := .f32) scatter_S50000x128_S600000x1_S600000x128_1_0_0_1 (val_main_v59 (F := Ideal)) (val_main_v60 (F := Ideal) x2)
        (Host.gather (α := Elt Ideal .f32) gather_S50000x128_S600000x1_S600000x128_1_0_n_n_0_1_1128 (val_main_v51 (F := Ideal) x0 x1 x2 x3 x4 x5 x6 x7 x8) (val_main_v57 (F := Ideal) x1)) := by
  unfold val_main_v61 val_main_v58
  rfl

/-! ## The second normalisation -/

/-- The sum of row `n`. -/
theorem ln2_sum_at (n : Fin 50000) :
    val_main_v62 (F := Ideal) x0 x1 x2 x3 x4 x5 x6 x7 x8 (ix1 n) = ∑ k : Fin 128, val_main_v61 (F := Ideal) x0 x1 x2 x3 x4 x5 x6 x7 x8 (ix2 n k) := by
  rw [val_main_v62_apply, val_main_cst_9_apply, Ideal.ofBits_def, Ideal.ofBits_zero_f32, zero_add]
  refine Finset.sum_congr rfl fun k _ => congrArg _ ?_
  exact funext fun a => by match a with | ⟨0, _⟩ => rfl | ⟨1, _⟩ => rfl

/-- The mean column at row `n`. -/
theorem ln2_mean_at (n : Fin 50000) (u : Fin 1) :
    val_main_v65 (F := Ideal) x0 x1 x2 x3 x4 x5 x6 x7 x8 (ix2 n u) = mean (a := 50000) (val_main_v61 (F := Ideal) x0 x1 x2 x3 x4 x5 x6 x7 x8) n := by
  rw [val_main_v65_apply, Ideal.hostDivf_def, val_main_v63_apply, val_main_v64_apply, val_main_cst_10_apply, Ideal.ofBits_def]
  have e : idx_main_v63 (ix2 n u) = ix1 n := funext fun a => by match a with | ⟨0, _⟩ => rfl
  rw [e, ln2_sum_at]
  rfl

/-- The deviation from the mean, as the program forms it for the variance. -/
theorem ln2_dev_at (n : Fin 50000) (k : Fin 128) :
    val_main_v67 (F := Ideal) x0 x1 x2 x3 x4 x5 x6 x7 x8 (ix2 n k) = val_main_v61 (F := Ideal) x0 x1 x2 x3 x4 x5 x6 x7 x8 (ix2 n k) - mean (a := 50000) (val_main_v61 (F := Ideal) x0 x1 x2 x3 x4 x5 x6 x7 x8) n := by
  rw [val_main_v67_apply, Ideal.subf_def, val_main_v66_apply]
  have e : idx_main_v66 (ix2 n k) = ix2 n (0 : Fin 1) := funext fun a => by match a with | ⟨0, _⟩ => rfl | ⟨1, _⟩ => rfl
  rw [e, ln2_mean_at]

/-- The sum of the squared deviations of row `n`. -/
theorem ln2_sqsum_at (n : Fin 50000) :
    val_main_v69 (F := Ideal) x0 x1 x2 x3 x4 x5 x6 x7 x8 (ix1 n)
      = ∑ k : Fin 128, (val_main_v61 (F := Ideal) x0 x1 x2 x3 x4 x5 x6 x7 x8 (ix2 n k) - mean (a := 50000) (val_main_v61 (F := Ideal) x0 x1 x2 x3 x4 x5 x6 x7 x8) n) * (val_main_v61 (F := Ideal) x0 x1 x2 x3 x4 x5 x6 x7 x8 (ix2 n k) - mean (a := 50000) (val_main_v61 (F := Ideal) x0 x1 x2 x3 x4 x5 x6 x7 x8) n) := by
  rw [val_main_v69_apply, val_main_cst_11_apply, Ideal.ofBits_def, Ideal.ofBits_zero_f32, zero_add]
  refine Finset.sum_congr rfl fun k _ => ?_
  have e : idx_main_v69 (ix1 n) k = ix2 n k := funext fun a => by match a with | ⟨0, _⟩ => rfl | ⟨1, _⟩ => rfl
  rw [e, val_main_v68_apply, Ideal.mulf_def, ln2_dev_at]

/-- The variance column at row `n`. -/
theorem ln2_var_at (n : Fin 50000) (u : Fin 1) :
    val_main_v72 (F := Ideal) x0 x1 x2 x3 x4 x5 x6 x7 x8 (ix2 n u) = var (a := 50000) (val_main_v61 (F := Ideal) x0 x1 x2 x3 x4 x5 x6 x7 x8) n := by
  rw [val_main_v72_apply, Ideal.hostDivf_def, val_main_v70_apply, val_main_v71_apply, val_main_cst_12_apply, Ideal.ofBits_def]
  have e : idx_main_v70 (ix2 n u) = ix1 n := funext fun a => by match a with | ⟨0, _⟩ => rfl
  rw [e, ln2_sqsum_at]
  rfl

/-- The reciprocal square root of the variance plus the small constant, spread along the row. -/
theorem ln2_rs_at (n : Fin 50000) (k : Fin 128) :
    val_main_v78 (F := Ideal) x0 x1 x2 x3 x4 x5 x6 x7 x8 (ix2 n k) = Ideal.rsqrt (var (a := 50000) (val_main_v61 (F := Ideal) x0 x1 x2 x3 x4 x5 x6 x7 x8) n + Ideal.ofBits .f32 0x3727C5AC#32) := by
  rw [val_main_v78_apply, val_main_v77_apply, Ideal.hostUnary_rsqrt_def, val_main_v76_apply, Ideal.addf_def, val_main_v75_apply, val_main_cst_13_apply,
    Ideal.ofBits_def]
  have e : idx_main_v78 (ix2 n k) = ix2 n (0 : Fin 1) := funext fun a => by match a with | ⟨0, _⟩ => rfl | ⟨1, _⟩ => rfl
  rw [e, ln2_var_at]

/-- The deviation from the mean times that reciprocal square root. -/
theorem ln2_norm_at (n : Fin 50000) (k : Fin 128) :
    val_main_v79 (F := Ideal) x0 x1 x2 x3 x4 x5 x6 x7 x8 (ix2 n k)
      = (val_main_v61 (F := Ideal) x0 x1 x2 x3 x4 x5 x6 x7 x8 (ix2 n k) - mean (a := 50000) (val_main_v61 (F := Ideal) x0 x1 x2 x3 x4 x5 x6 x7 x8) n) * Ideal.rsqrt (var (a := 50000) (val_main_v61 (F := Ideal) x0 x1 x2 x3 x4 x5 x6 x7 x8) n + Ideal.ofBits .f32 0x3727C5AC#32) := by
  rw [val_main_v79_apply, Ideal.mulf_def, ln2_rs_at, val_main_v74_apply, Ideal.subf_def, val_main_v73_apply]
  have e : idx_main_v73 (ix2 n k) = ix2 n (0 : Fin 1) := funext fun a => by match a with | ⟨0, _⟩ => rfl | ⟨1, _⟩ => rfl
  rw [e, ln2_mean_at]

/-- The per-feature scale, spread along the rows. -/
theorem ln2_g_at (n : Fin 50000) (k : Fin 128) : val_main_v81 (F := Ideal) x9 (ix2 n k) = x9 (ix1 k) := by
  rw [val_main_v81_apply, val_main_v80_apply]
  exact congrArg x9 (funext fun a => by match a with | ⟨0, _⟩ => rfl)

/-- The per-feature shift, spread along the rows. -/
theorem ln2_b_at (n : Fin 50000) (k : Fin 128) : val_main_v84 (F := Ideal) x10 (ix2 n k) = x10 (ix1 k) := by
  rw [val_main_v84_apply, val_main_v83_apply]
  exact congrArg x10 (funext fun a => by match a with | ⟨0, _⟩ => rfl)

/-- The normalised row `n` at feature `k`. -/
theorem ln2_at (n : Fin 50000) (k : Fin 128) :
    val_main_v85 (F := Ideal) x0 x1 x2 x3 x4 x5 x6 x7 x8 x9 x10 (ix2 n k)
      = lnAt (a := 50000) (val_main_v61 (F := Ideal) x0 x1 x2 x3 x4 x5 x6 x7 x8) (fun k => x9 (ix1 k)) (fun k => x10 (ix1 k)) n k := by
  rw [val_main_v85_apply, Ideal.addf_def, val_main_v82_apply, Ideal.mulf_def, ln2_norm_at, ln2_g_at, ln2_b_at]
  rfl

/-! ## The read-out -/

/-- The read-out's linear image of the normalised row `n` at output `o`. -/
theorem v87_at (n : Fin 50000) (o : Fin 64) :
    val_main_v87 (F := Ideal) x0 x1 x2 x3 x4 x5 x6 x7 x8 x9 x10 x11 (ix2 n o) = ∑ k : Fin 128, lnAt (a := 50000) (val_main_v61 (F := Ideal) x0 x1 x2 x3 x4 x5 x6 x7 x8) (fun k => x9 (ix1 k)) (fun k => x10 (ix1 k)) n k * x11 (ix2 o k) := by
  rw [val_main_v87_apply]
  refine Finset.sum_congr rfl fun k _ => ?_
  rw [val_main_v86_apply]
  have el : lidx_main_v87 (ix2 n o) k = ix2 n k := funext fun a => by match a with | ⟨0, _⟩ => rfl | ⟨1, _⟩ => rfl
  have er : idx_main_v86 (ridx_main_v87 (ix2 n o) k) = ix2 o k := funext fun a => by match a with | ⟨0, _⟩ => rfl | ⟨1, _⟩ => rfl
  rw [el, er, ln2_at]

/-- The bias, spread along the rows. -/
theorem v89_at (n : Fin 50000) (o : Fin 64) : val_main_v89 (F := Ideal) x12 (ix2 n o) = x12 (ix1 o) := by
  rw [val_main_v89_apply, val_main_v88_apply]
  exact congrArg x12 (funext fun a => by match a with | ⟨0, _⟩ => rfl)

/-- The program spells the logistic function `1 / (1 + exp (−z))`, which is its definition. -/
theorem out_at (n : Fin 50000) (o : Fin 64) :
    val_main_v96 (F := Ideal) x0 x1 x2 x3 x4 x5 x6 x7 x8 x9 x10 x11 x12 (ix2 n o)
      = projAt (a := 50000) (ln (a := 50000) (val_main_v61 (F := Ideal) x0 x1 x2 x3 x4 x5 x6 x7 x8) (fun k => x9 (ix1 k)) (fun k => x10 (ix1 k)))
          (fun o k => x11 (ix2 o k)) (fun o => x12 (ix1 o)) n o := by
  rw [val_main_v96_apply, Ideal.hostDivf_def, val_main_v95_apply, val_main_cst_15_apply, Ideal.ofBits_def, Ideal.ofBits_one_f32,
    val_main_v94_apply, Ideal.addf_def, val_main_v93_apply, val_main_cst_14_apply, Ideal.ofBits_def, Ideal.ofBits_one_f32,
    val_main_v92_apply, Ideal.hostUnary_exp_def, val_main_v91_apply, Ideal.hostNegf_def, Ideal.negf_def, val_main_v90_apply,
    Ideal.addf_def, v87_at, v89_at]
  rfl

/-- The program's result: the read-out of the normalised second sums. -/
theorem out : val_main_v96 (F := Ideal) x0 x1 x2 x3 x4 x5 x6 x7 x8 x9 x10 x11 x12
    = proj (a := 50000) (ln (a := 50000) (val_main_v61 (F := Ideal) x0 x1 x2 x3 x4 x5 x6 x7 x8) (fun k => x9 (ix1 k)) (fun k => x10 (ix1 k)))
        (fun o k => x11 (ix2 o k)) (fun o => x12 (ix1 o)) := by
  funext i
  obtain ⟨n, o, rfl⟩ : ∃ (n : Fin 50000) (o : Fin 64), i = ix2 n o := ⟨i 0, i 1, eq_ix2 i⟩
  exact out_at x0 x1 x2 x3 x4 x5 x6 x7 x8 x9 x10 x11 x12 n o

end Cert.RefSide

end
-- ==== Proof.RefVal.lean ====
/-
  The reference program's result is the network's function of its arguments.

  The reference's result is the read-out of its normalised second edge sum; the second edge sum is of the second
  layer's messages, which modulate the normalised first edge sum; the first edge sum is of the first layer's
  messages.  The two edge sums are the same host computation as the other program's: the gather of the message
  rows at the edges' sources, a negative source counted from the end, added into zeros at the edges' destinations.
-/
import proofs.«146779_j84765474554364_2_alg».proof.Proof.RefSide
import proofs.«146779_j84765474554364_2_alg».proof.Proof.Whole

noncomputable section

namespace Cert.RefSide

open Cert.ReferenceIdeal Cert.ReferenceIdeal.Gen Cert.ReferenceIdeal.Read Idealize.ShloMosaic Idealize.ShloMosaic.ValueIdx Cert.Spec

variable (x0 : (⟨S50000x128, .f32⟩ : BufTy).Contents (Elt Ideal)) (x1 x2 : (⟨S600000, .i32⟩ : BufTy).Contents (Elt Ideal))
  (x3 : (⟨S128x128, .f32⟩ : BufTy).Contents (Elt Ideal)) (x4 : (⟨S256x128, .f32⟩ : BufTy).Contents (Elt Ideal)) (x5 x6 : (⟨S128, .f32⟩ : BufTy).Contents (Elt Ideal))
  (x7 : (⟨S128x128, .f32⟩ : BufTy).Contents (Elt Ideal)) (x8 : (⟨S256x128, .f32⟩ : BufTy).Contents (Elt Ideal)) (x9 x10 : (⟨S128, .f32⟩ : BufTy).Contents (Elt Ideal))
  (x11 : (⟨S64x128, .f32⟩ : BufTy).Contents (Elt Ideal)) (x12 : (⟨S64, .f32⟩ : BufTy).Contents (Elt Ideal))

/-- The reference's first edge sum of an array `M` of message rows is the named edge sum. -/
theorem edgeSum1 (M : (⟨S50000x128, .f32⟩ : BufTy).Contents (Elt Ideal)) :
    Host.scatterAdd (F := Ideal) (φ := .f32) scatter_S50000x128_S600000x1_S600000x128_1_0_0_1 (val_main_v16 (F := Ideal)) (val_main_v17 (F := Ideal) x2)
        (Host.gather (α := Elt Ideal .f32) gather_S50000x128_S600000x1_S600000x128_1_0_n_n_0_1_1128 M (val_main_v14 (F := Ideal) x1))
      = Cert.KernelIdeal.Hand.Agg x1 x2 M := by
  unfold val_main_v16 val_main_v17 val_main_v14 val_main_v13 val_main_v12 val_main_v11 val_main_v10 val_main_v9 val_main_c val_main_c_0
    val_main_cst Cert.KernelIdeal.Hand.Agg
  rfl

/-- The reference's second edge sum of an array `M` of message rows is the named edge sum. -/
theorem edgeSum2 (M : (⟨S50000x128, .f32⟩ : BufTy).Contents (Elt Ideal)) :
    Host.scatterAdd (F := Ideal) (φ := .f32) scatter_S50000x128_S600000x1_S600000x128_1_0_0_1 (val_main_v59 (F := Ideal)) (val_main_v60 (F := Ideal) x2)
        (Host.gather (α := Elt Ideal .f32) gather_S50000x128_S600000x1_S600000x128_1_0_n_n_0_1_1128 M (val_main_v57 (F := Ideal) x1))
      = Cert.KernelIdeal.Hand.Agg x1 x2 M := by
  unfold val_main_v59 val_main_v60 val_main_v57 val_main_v56 val_main_v55 val_main_v54 val_main_v53 val_main_v52 val_main_c_6 val_main_c_7
    val_main_cst_8 Cert.KernelIdeal.Hand.Agg
  rfl

/-- The reference's result array is the network's function of the thirteen arguments. -/
theorem ref_value :
    val_main_v96 (F := Ideal) x0 x1 x2 x3 x4 x5 x6 x7 x8 x9 x10 x11 x12 = Cert.KernelIdeal.Hand.whole x0 x1 x2 x3 x4 x5 x6 x7 x8 x9 x10 x11 x12 := by
  rw [out, agg2, edgeSum2, msg2, agg1, edgeSum1, msg1]
  rfl

end Cert.RefSide

end
-- ==== Proof.lean ====
/-
  A two-layer graph network with feature-wise modulation, against its plain reference, over the extended reals.

  One program computes the network in three pipelined regions over blocks of 10000 node rows — the first layer's
  modulated messages; the normalisation of the edge-summed messages fused with the second layer; the second
  normalisation fused with the read-out — and sums the messages along the graph's edges on the host between
  them.  It multiplies each row block by ONE matrix holding a layer's three linear maps side by side and takes
  the three column parts of the product.  The reference computes the same network with whole-array host
  operations and two separate products per layer.

  Over the extended reals both are the same function of the thirteen arguments, entry by entry: a column part of
  the product with the side-by-side matrix is the product with that part's matrix (a sum over the same 128
  features, only the weights' coordinates renamed); a block's rows are the array's rows; mean, variance,
  reciprocal square root, scale, offset, maximum with zero and the logistic function are applied in the same order
  on both sides; and the sum along the edges is one and the same host computation, carried unopened.  No law
  beyond the renaming of coordinates is used, so the finiteness of the inputs is never opened.

  The three frames are the programs' runs with the results dropped; the idealisation rewrote nothing.
-/
import proofs.«146779_j84765474554364_2_alg».proof.Defs
import proofs.«146779_j84765474554364_2_alg».proof.Proof.Gen.Kernel
import proofs.«146779_j84765474554364_2_alg».proof.Proof.Gen.Kernel.Frame
import proofs.«146779_j84765474554364_2_alg».proof.Proof.Gen.KernelIdeal
import proofs.«146779_j84765474554364_2_alg».proof.Proof.Gen.KernelIdeal.Frame
import proofs.«146779_j84765474554364_2_alg».proof.Proof.Gen.ReferenceIdeal
import proofs.«146779_j84765474554364_2_alg».proof.Proof.Gen.ReferenceIdeal.Run
import proofs.«146779_j84765474554364_2_alg».proof.Proof.Gen.ReferenceIdeal.Read
import proofs.«146779_j84765474554364_2_alg».proof.Proof.Gen.Pre_finite_inputs
import proofs.«146779_j84765474554364_2_alg».proof.Proof.KRun
import proofs.«146779_j84765474554364_2_alg».proof.Proof.KVal
import proofs.«146779_j84765474554364_2_alg».proof.Proof.RefVal
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- The idealised program runs and leaves its arguments as launched. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments both programs end with the network's function of the arguments in
    their result arrays. -/
theorem algebraic : Cert.algebraic_KernelIdeal_ReferenceIdeal := by
  intro m ρ m' ρ' _ hagree
  refine ⟨fun c => Cert.KernelIdeal.Hand.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Hand.kernel_value m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v96_eq, Cert.RefSide.ref_value, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
